-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S2x1600000 : Shape := ⟨2, ![2, 1600000]⟩
abbrev S1024x128 : Shape := ⟨2, ![1024, 128]⟩
abbrev S128 : Shape := ⟨1, ![128]⟩
abbrev S128x128 : Shape := ⟨2, ![128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x64 .f32) (main_arg13 : FVec F S64 .f32) (main_arg14 : FVec F S64x1 .f32) (main_arg15 : FVec F S1 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S128x64 .f32 := Host.absf main_arg12
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S3x128 .f32) (main_arg9 : FVec F S3x128 .f32) (main_arg10 : FVec F S3x128 .f32) (main_arg11 : FVec F S3x128 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg10
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg11
  let main_cst_18 : FVec F S_ .f32 := constant S_ .f32 0x7F800000#32
  let main_v50 : FVec F S3x128 .f32 := broadcastInDim S3x128 ![] bcast_S_S3x128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S3x128 .f32) (main_arg9 : FVec F S3x128 .f32) (main_arg10 : FVec F S3x128 .f32) (main_arg11 : FVec F S3x128 .f32) (main_arg12 : FVec F S128x64 .f32) (main_arg13 : FVec F S64 .f32) (main_arg14 : FVec F S64x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x1024 .f32) (main_arg1 : IVec S2x1600000 32) (main_arg2 : FVec F S1024x128 .f32) (main_arg3 : FVec F S128 .f32) (main_arg4 : FVec F S128x128 .f32) (main_arg5 : FVec F S128 .f32) (main_arg6 : FVec F S128x128 .f32) (main_arg7 : FVec F S128 .f32) (main_arg8 : FVec F S3x128 .f32) (main_arg9 : FVec F S3x128 .f32) (main_arg10 : FVec F S3x128 .f32) (main_arg11 : FVec F S3x128 .f32) (main_arg12 : FVec F S128x64 .f32) (main_arg13 : FVec F S64 .f32) (main_arg14 : FVec F S64x1 .f32) (main_arg15 : FVec F S1 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x1024 : Shape := ⟨2, ![100000, 1024]⟩
abbrev S2x1600000 : Shape := ⟨2, ![2, 1600000]⟩
abbrev S1024x128 : Shape := ⟨2, ![1024, 128]⟩
abbrev S128 : Shape := ⟨1, ![128]⟩
abbrev S128x128 : Shape := ⟨2, ![128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1000x1024 : Shape := ⟨2, ![1000, 1024]⟩
abbrev S1000x128 : Shape := ⟨2, ![1000, 128]⟩
abbrev S1600000x128 : Shape := ⟨2, ![1600000, 128]⟩
abbrev S1x128 : Shape := ⟨2, ![1, 128]⟩
abbrev S1000x1 : Shape := ⟨2, ![1000, 1]⟩
abbrev S1x64 : Shape := ⟨2, ![1, 64]⟩
abbrev S1x1 : Shape := ⟨2, ![1, 1]⟩
abbrev S1000x64 : Shape := ⟨2, ![1000, 64]⟩

abbrev nBuf : Space → Nat
  | .hbm => 145
  | .vmem => 62
  | .smem => 0
  | _ => 0

abbrev hbmTy0_0 (i : Nat) : BufTy := match i % 128 with
  | 0 => ⟨S100000x1024, .f32⟩
  | 1 => ⟨S2x1600000, .i32⟩
  | 2 => ⟨S1024x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S3x128, .f32⟩
  | 9 => ⟨S3x128, .f32⟩
  | 10 => ⟨S3x128, .f32⟩
  | 11 => ⟨S3x128, .f32⟩
  | 12 => ⟨S128x64, .f32⟩
  | 13 => ⟨S64, .f32⟩
  | 14 => ⟨S64x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000, .f32⟩
  | 31 => ⟨S100000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1x128, .f32⟩
  | 69 => ⟨S128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S1600000x128, .f32⟩
  | 93 => ⟨S1600000x128, .f32⟩
  | 94 => ⟨S_, .f32⟩
  | 95 => ⟨S100000x128, .f32⟩
  | 96 => ⟨S1600000x1, .i32⟩
  | 97 => ⟨S100000x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S1x128, .f32⟩
  | 108 => ⟨S1x128, .f32⟩
  | 109 => ⟨S1x128, .f32⟩
  | 110 => ⟨S1x128, .f32⟩
  | 111 => ⟨S100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S1600000x128, .f32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x1024, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S1x128, .f32⟩
  | 7 => ⟨S128, .f32⟩
  | 8 => ⟨S1x128, .f32⟩
  | 9 => ⟨S1x128, .f32⟩
  | 10 => ⟨S1x128, .f32⟩
  | 11 => ⟨S1x128, .f32⟩
  | 12 => ⟨S1x128, .f32⟩
  | 13 => ⟨S100000x128, .f32⟩
  | 14 => ⟨S1x64, .f32⟩
  | 15 => ⟨S1x1, .f32⟩
  | 16 => ⟨S100000x1, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | .local _ .vmem, ⟨0, _⟩ => ⟨S1000x1024, .f32⟩
  | .local _ .vmem, ⟨1, _⟩ => ⟨S1000x1024, .f32⟩
  | .local _ .vmem, ⟨2, _⟩ => ⟨S1024x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x1, .f32⟩
  | .local _ .vmem, ⟨10, _⟩ => ⟨S1000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S128x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x128, .f32⟩
  | .local _ .vmem, ⟨27, _⟩ => ⟨S1000x1, .f32⟩
  | .local _ .vmem, ⟨28, _⟩ => ⟨S1000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S128x128, .f32⟩
  | .local _ .vmem, ⟨39, _⟩ => ⟨S1000x128, .f32⟩
  | .local _ .vmem, ⟨40, _⟩ => ⟨S1000x128, .f32⟩
  | .local _ .vmem, ⟨41, _⟩ => ⟨S1000x128, .f32⟩
  | .local _ .vmem, ⟨42, _⟩ => ⟨S1000x128, .f32⟩
  | .local _ .vmem, ⟨43, _⟩ => ⟨S1000x128, .f32⟩
  | .local _ .vmem, ⟨44, _⟩ => ⟨S1000x128, .f32⟩
  | .local _ .vmem, ⟨45, _⟩ => ⟨S1000x1, .f32⟩
  | .local _ .vmem, ⟨46, _⟩ => ⟨S1000x1, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1000x128, .f32⟩
  | .local _ .vmem, ⟨53, _⟩ => ⟨S1000x128, .f32⟩
  | .local _ .vmem, ⟨54, _⟩ => ⟨S1000x128, .f32⟩
  | .local _ .vmem, ⟨55, _⟩ => ⟨S1000x128, .f32⟩
  | .local _ .vmem, ⟨56, _⟩ => ⟨S128x64, .f32⟩
  | .local _ .vmem, ⟨57, _⟩ => ⟨S1x64, .f32⟩
  | .local _ .vmem, ⟨58, _⟩ => ⟨S64x1, .f32⟩
  | .local _ .vmem, ⟨59, _⟩ => ⟨S1x1, .f32⟩
  | .local _ .vmem, ⟨60, _⟩ => ⟨S1000x1, .f32⟩
  | .local _ .vmem, ⟨61, _⟩ => ⟨S1000x1, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_8 : Ref sig .tc := ⟨.hbm, 83, rfl⟩
abbrev main_v57 : Ref sig .tc := ⟨.hbm, 84, rfl⟩
abbrev main_v58 : Ref sig .tc := ⟨.hbm, 85, rfl⟩
abbrev main_c_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_11 : Ref sig .tc := ⟨.hbm, 113, rfl⟩
abbrev main_v84 : Ref sig .tc := ⟨.hbm, 114, rfl⟩
abbrev main_v85 : Ref sig .tc := ⟨.hbm, 115, rfl⟩
abbrev main_c_12 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_13 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem8_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S1000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S1000x1024_S1000x1024_0_0 : ∀ a, (![0, 0] : Fin 2 → Nat) a + S1000x1024.size a ≤ S1000x1024.size a
  h_S1000x1024 : 0 < S1000x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1000x128_S1000x128_0_0 : ∀ a, (![0, 0] : Fin 2 → Nat) a + S1000x128.size a ≤ S1000x128.size a
  h_S1000x128 : 0 < S1000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  slices_S3x128_S1x128_1_0 : S3x128.Slices ![1, 0] S1x128
  slices_S3x128_S1x128_2_0 : S3x128.Slices ![2, 0] S1x128
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S1000x1024_S1024x128_S1000x128_1_0_0_1_n_n_wf : DotDims.WF S1000x1024 S1024x128 S1000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S100000x1024.size a
  hwx0_0 : ∀ i : grid0.Coords, EltTy.bits .f32 = 32 ∨ (Rect.block (s := S100000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S100000x128.size a
  hwx1_1 : ∀ i : grid1.Coords, EltTy.bits .f32 = 32 ∨ (Rect.block (s := S100000x128) S1000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x128.size a ≤ S100000x128.size a
  hwx1_8 : ∀ i : grid1.Coords, EltTy.bits .f32 = 32 ∨ (Rect.block (s := S100000x128) S1000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S100000x128.size a
  hwx2_2 : ∀ i : grid2.Coords, EltTy.bits .f32 = 32 ∨ (Rect.block (s := S100000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S100000x128.size a
  hwx3_1 : ∀ i : grid3.Coords, EltTy.bits .f32 = 32 ∨ (Rect.block (s := S100000x128) S1000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S100000x1.size a
  hwx3_2 : ∀ i : grid3.Coords, EltTy.bits .f32 = 32 ∨ (Rect.block (s := S100000x1) S1000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1000x128.size a ≤ S100000x128.size a
  hwx3_8 : ∀ i : grid3.Coords, EltTy.bits .f32 = 32 ∨ (Rect.block (s := S100000x128) S1000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S100000x128.size a
  hwx4_0 : ∀ i : grid4.Coords, EltTy.bits .f32 = 32 ∨ (Rect.block (s := S100000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S100000x128.size a
  hwx4_2 : ∀ i : grid4.Coords, EltTy.bits .f32 = 32 ∨ (Rect.block (s := S100000x128) S1000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S100000x128.size a
  hwx5_0 : ∀ i : grid5.Coords, EltTy.bits .f32 = 32 ∨ (Rect.block (s := S100000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S100000x128.size a
  hwx5_1 : ∀ i : grid5.Coords, EltTy.bits .f32 = 32 ∨ (Rect.block (s := S100000x128) S1000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x1.size a ≤ S100000x1.size a
  hwx5_2 : ∀ i : grid5.Coords, EltTy.bits .f32 = 32 ∨ (Rect.block (s := S100000x1) S1000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1000x128.size a ≤ S100000x128.size a
  hwx5_8 : ∀ i : grid5.Coords, EltTy.bits .f32 = 32 ∨ (Rect.block (s := S100000x128) S1000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S100000x128.size a
  hwx6_0 : ∀ i : grid6.Coords, EltTy.bits .f32 = 32 ∨ (Rect.block (s := S100000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1000x1.size a ≤ S100000x1.size a
  hwx6_5 : ∀ i : grid6.Coords, EltTy.bits .f32 = 32 ∨ (Rect.block (s := S100000x1) S1000x1.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v55) S1000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v55) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v80) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v82) S1000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v82) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S1000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v107) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v108) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v109) S1000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v109) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112) S1000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x1024 : Shape := ⟨2, ![100000, 1024]⟩
abbrev S2x1600000 : Shape := ⟨2, ![2, 1600000]⟩
abbrev S1024x128 : Shape := ⟨2, ![1024, 128]⟩
abbrev S128 : Shape := ⟨1, ![128]⟩
abbrev S128x128 : Shape := ⟨2, ![128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S1x1 : Shape := ⟨2, ![1, 1]⟩

abbrev nBuf : Space → Nat
  | .hbm => 254
  | .vmem => 0
  | .smem => 0
  | _ => 0

abbrev hbmTy0_0 (i : Nat) : BufTy := match i % 128 with
  | 0 => ⟨S100000x1024, .f32⟩
  | 1 => ⟨S2x1600000, .i32⟩
  | 2 => ⟨S1024x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S3x128, .f32⟩
  | 9 => ⟨S3x128, .f32⟩
  | 10 => ⟨S3x128, .f32⟩
  | 11 => ⟨S3x128, .f32⟩
  | 12 => ⟨S128x64, .f32⟩
  | 13 => ⟨S64, .f32⟩
  | 14 => ⟨S64x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S_, .f32⟩
  | 21 => ⟨S1600000, .f32⟩
  | 22 => ⟨S_, .f32⟩
  | 23 => ⟨S100000, .f32⟩
  | 24 => ⟨S1600000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x1024, .f32⟩

abbrev hbmTy0_1 (i : Nat) : BufTy := match i % 128 with
  | 0 => ⟨S1600000x1, .i32⟩
  | 1 => ⟨S1600000x128, .f32⟩
  | 2 => ⟨S1600000x1, .f32⟩
  | 3 => ⟨S1600000x128, .f32⟩
  | 4 => ⟨S1600000x128, .f32⟩
  | 5 => ⟨S_, .f32⟩
  | 6 => ⟨S100000x128, .f32⟩
  | 7 => ⟨S1600000x1, .i32⟩
  | 8 => ⟨S100000x128, .f32⟩
  | 9 => ⟨S100000, .f32⟩
  | 10 => ⟨S100000x1, .f32⟩
  | 11 => ⟨S100000x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S128, .f32⟩
  | 33 => ⟨S1x128, .f32⟩
  | 34 => ⟨S100000x128, .f32⟩
  | 35 => ⟨S100000x128, .f32⟩
  | 36 => ⟨S1x128, .f32⟩
  | 37 => ⟨S128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000, .f32⟩
  | 63 => ⟨S1600000, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S1600000x1, .f32⟩
  | 74 => ⟨S1600000x128, .f32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000, .f32⟩
  | 81 => ⟨S100000x1, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x1, .f32⟩
  | 123 => ⟨S1x1, .f32⟩
  | 124 => ⟨S100000x1, .f32⟩
  | 125 => ⟨S100000x1, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call0_cst : Ref sig .tc := ⟨.hbm, 98, rfl⟩
abbrev main_call0_v0 : Ref sig .tc := ⟨.hbm, 99, rfl⟩
abbrev main_v71 : Ref sig .tc := ⟨.hbm, 100, rfl⟩
abbrev main_v72 : Ref sig .tc := ⟨.hbm, 101, rfl⟩
abbrev main_c_9 : Ref sig .tc := ⟨.hbm, 102, rfl⟩
abbrev main_v73 : Ref sig .tc := ⟨.hbm, 103, rfl⟩
abbrev main_v74 : Ref sig .tc := ⟨.hbm, 104, rfl⟩
abbrev main_c_10 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_11 : Ref sig .tc := ⟨.hbm, 111, rfl⟩
abbrev main_v80 : Ref sig .tc := ⟨.hbm, 112, rfl⟩
abbrev main_v81 : Ref sig .tc := ⟨.hbm, 113, rfl⟩
abbrev main_c_12 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_13 : Ref sig .tc := ⟨.hbm, 121, rfl⟩
abbrev main_v88 : Ref sig .tc := ⟨.hbm, 122, rfl⟩
abbrev main_v89 : Ref sig .tc := ⟨.hbm, 123, rfl⟩
abbrev main_c_14 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_15 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_16 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_call1_cst : Ref sig .tc := ⟨.hbm, 169, rfl⟩
abbrev main_call1_v0 : Ref sig .tc := ⟨.hbm, 170, rfl⟩
abbrev main_v132 : Ref sig .tc := ⟨.hbm, 171, rfl⟩
abbrev main_v133 : Ref sig .tc := ⟨.hbm, 172, rfl⟩
abbrev main_c_17 : Ref sig .tc := ⟨.hbm, 173, rfl⟩
abbrev main_v134 : Ref sig .tc := ⟨.hbm, 174, rfl⟩
abbrev main_v135 : Ref sig .tc := ⟨.hbm, 175, rfl⟩
abbrev main_c_18 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_19 : Ref sig .tc := ⟨.hbm, 182, rfl⟩
abbrev main_v141 : Ref sig .tc := ⟨.hbm, 183, rfl⟩
abbrev main_v142 : Ref sig .tc := ⟨.hbm, 184, rfl⟩
abbrev main_c_20 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_c_21 : Ref sig .tc := ⟨.hbm, 192, rfl⟩
abbrev main_v149 : Ref sig .tc := ⟨.hbm, 193, rfl⟩
abbrev main_v150 : Ref sig .tc := ⟨.hbm, 194, rfl⟩
abbrev main_c_22 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_23 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_24 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_call2_cst : Ref sig .tc := ⟨.hbm, 240, rfl⟩
abbrev main_call2_v0 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_call3_cst : Ref sig .tc := ⟨.hbm, 247, rfl⟩
abbrev main_call3_v0 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128_S1x128_1_0 : S3x128.Slices ![1, 0] S1x128
  slices_S3x128_S1x128_2_0 : S3x128.Slices ![2, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  dot_S100000x1024_S1024x128_S100000x128_1_0_0_1_n_n_wf : DotDims.WF S100000x1024 S1024x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x1024_S1024x128_S100000x128_1_0_0_1_n_n : DotDims S100000x1024 S1024x128 S100000x128 where
  lhsContracting := [1]
  rhsContracting := [0]
  lhsNonContracting := [0]
  rhsNonContracting := [1]
  lhsBatch := []
  rhsBatch := []
  wf := dot_S100000x1024_S1024x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  The three functions a graph-convolution network of this shape is made of, over the extended reals, index by index.

  * `mm x w`: the matrix product, entry `(p, c)` the sum over `q` of `x (p, q) · w (q, c)`.
  * `comb ε z hl ag sn bi ga be rm rv`: one layer after its linear map `hl`: the aggregated messages `ag` plus the
    self-loop term `sn (p) · hl (p, c)` plus the bias, then the normalisation by running statistics
    `(· − rm) · (rv + ε)^(-1/2) · ga + be`, then the positive part (the maximum with `z`, the zero word).
    The per-node weight `sn` is a column `[a, 1]`; the per-feature parameters are rows `[1, b]`.
  * `cls z x w1 b1 w2 b2`: the two-layer head, `max (x · w1 + b1) z · w2 + b2`.
-/
import Idealize.ShloMosaic.PureOps.Ideal
import Idealize.ShloMosaic.Lib.ValueIdx

noncomputable section

namespace Cert.GcnSpec

open Idealize.ShloMosaic Idealize.ShloMosaic.ValueIdx

/-- Entry `(p, c)` of the matrix product: the sum over `q` of `x (p, q) · w (q, c)`. -/
def mm {a k b : ℕ} (x : (⟨2, ![a, k]⟩ : Shape).Idx → EReal) (w : (⟨2, ![k, b]⟩ : Shape).Idx → EReal) :
    (⟨2, ![a, b]⟩ : Shape).Idx → EReal :=
  fun i => ∑ q : Fin k, x (ix2 (i 0) q) * w (ix2 q (i 1))

/-- One layer after its linear map, entry `(p, c)`:
    `max ((((ag + sn(p)·hl) + bi(c)) − rm(c)) · rsqrt (rv(c) + ε) · ga(c) + be(c)) z`. -/
def comb {a b : ℕ} (ε z : EReal) (hl ag : (⟨2, ![a, b]⟩ : Shape).Idx → EReal) (sn : (⟨2, ![a, 1]⟩ : Shape).Idx → EReal)
    (bi ga be rm rv : (⟨2, ![1, b]⟩ : Shape).Idx → EReal) : (⟨2, ![a, b]⟩ : Shape).Idx → EReal :=
  fun i => max (((((ag i + sn (ix2 (i 0) (0 : Fin 1)) * hl i) + bi (ix2 (0 : Fin 1) (i 1))) - rm (ix2 (0 : Fin 1) (i 1)))
      * Ideal.rsqrt (rv (ix2 (0 : Fin 1) (i 1)) + ε)) * ga (ix2 (0 : Fin 1) (i 1)) + be (ix2 (0 : Fin 1) (i 1))) z

/-- The two-layer head, entry `(p, u)`: `(max (x·w1 + b1) z) · w2 + b2`. -/
def cls {a h k : ℕ} (z : EReal) (x : (⟨2, ![a, h]⟩ : Shape).Idx → EReal) (w1 : (⟨2, ![h, k]⟩ : Shape).Idx → EReal)
    (b1 : (⟨2, ![1, k]⟩ : Shape).Idx → EReal) (w2 : (⟨2, ![k, 1]⟩ : Shape).Idx → EReal)
    (b2 : (⟨2, ![1, 1]⟩ : Shape).Idx → EReal) : (⟨2, ![a, 1]⟩ : Shape).Idx → EReal :=
  fun i => mm (fun j : (⟨2, ![a, k]⟩ : Shape).Idx => max (mm x w1 j + b1 (ix2 (0 : Fin 1) (j 1))) z) w2 i
    + b2 (ix2 (0 : Fin 1) (i 1))

/-- The matrix product of a block of rows is that block of rows of the matrix product: rows `o + r` of `x`. -/
theorem mm_rows {A a k b : ℕ} (X : (⟨2, ![A, k]⟩ : Shape).Idx → EReal) (x : (⟨2, ![a, k]⟩ : Shape).Idx → EReal)
    (w : (⟨2, ![k, b]⟩ : Shape).Idx → EReal) (I : (⟨2, ![A, b]⟩ : Shape).Idx) (i : (⟨2, ![a, b]⟩ : Shape).Idx)
    (hx : ∀ q : Fin k, x (ix2 (i 0) q) = X (ix2 (I 0) q)) (hc : I 1 = i 1) : mm x w i = mm X w I := by
  unfold mm
  rw [hc]
  exact Finset.sum_congr rfl fun q _ => by rw [hx q]

/-- The matrix product at one entry depends on one row of the left factor and one column of the right factor. -/
theorem mm_congr {A a k b B : ℕ} (X : (⟨2, ![A, k]⟩ : Shape).Idx → EReal) (x : (⟨2, ![a, k]⟩ : Shape).Idx → EReal)
    (W : (⟨2, ![k, B]⟩ : Shape).Idx → EReal) (w : (⟨2, ![k, b]⟩ : Shape).Idx → EReal)
    (I : (⟨2, ![A, B]⟩ : Shape).Idx) (i : (⟨2, ![a, b]⟩ : Shape).Idx)
    (hx : ∀ q : Fin k, x (ix2 (i 0) q) = X (ix2 (I 0) q)) (hw : ∀ q : Fin k, w (ix2 q (i 1)) = W (ix2 q (I 1))) :
    mm x w i = mm X W I := by
  unfold mm
  exact Finset.sum_congr rfl fun q _ => by rw [hx q, hw q]

/-- The layer combine at one entry depends on that entry of the linear map and of the aggregate, the node's weight and
    the feature's five parameters. -/
theorem comb_congr {A a b B : ℕ} (ε z : EReal) (HL AG : (⟨2, ![A, B]⟩ : Shape).Idx → EReal) (SN : (⟨2, ![A, 1]⟩ : Shape).Idx → EReal)
    (BI GA BE RM RV : (⟨2, ![1, B]⟩ : Shape).Idx → EReal)
    (hl ag : (⟨2, ![a, b]⟩ : Shape).Idx → EReal) (sn : (⟨2, ![a, 1]⟩ : Shape).Idx → EReal)
    (bi ga be rm rv : (⟨2, ![1, b]⟩ : Shape).Idx → EReal)
    (I : (⟨2, ![A, B]⟩ : Shape).Idx) (i : (⟨2, ![a, b]⟩ : Shape).Idx)
    (h1 : hl i = HL I) (h2 : ag i = AG I) (h3 : sn (ix2 (i 0) (0 : Fin 1)) = SN (ix2 (I 0) (0 : Fin 1)))
    (h4 : bi (ix2 (0 : Fin 1) (i 1)) = BI (ix2 (0 : Fin 1) (I 1))) (h5 : ga (ix2 (0 : Fin 1) (i 1)) = GA (ix2 (0 : Fin 1) (I 1)))
    (h6 : be (ix2 (0 : Fin 1) (i 1)) = BE (ix2 (0 : Fin 1) (I 1))) (h7 : rm (ix2 (0 : Fin 1) (i 1)) = RM (ix2 (0 : Fin 1) (I 1)))
    (h8 : rv (ix2 (0 : Fin 1) (i 1)) = RV (ix2 (0 : Fin 1) (I 1))) :
    comb ε z hl ag sn bi ga be rm rv i = comb ε z HL AG SN BI GA BE RM RV I := by
  unfold comb
  rw [h1, h2, h3, h4, h5, h6, h7, h8]

/-- The head at one entry depends on one row of its input and on the whole of its small parameters. -/
theorem cls_congr {A a h k : ℕ} (z : EReal) (X : (⟨2, ![A, h]⟩ : Shape).Idx → EReal) (x : (⟨2, ![a, h]⟩ : Shape).Idx → EReal)
    (W1 w1 : (⟨2, ![h, k]⟩ : Shape).Idx → EReal) (B1 b1 : (⟨2, ![1, k]⟩ : Shape).Idx → EReal)
    (W2 w2 : (⟨2, ![k, 1]⟩ : Shape).Idx → EReal) (B2 b2 : (⟨2, ![1, 1]⟩ : Shape).Idx → EReal)
    (I : (⟨2, ![A, 1]⟩ : Shape).Idx) (i : (⟨2, ![a, 1]⟩ : Shape).Idx)
    (hx : ∀ l : Fin h, x (ix2 (i 0) l) = X (ix2 (I 0) l)) (hw1 : w1 = W1) (hb1 : b1 = B1) (hw2 : w2 = W2) (hb2 : b2 = B2)
    (hc : I 1 = i 1) : cls z x w1 b1 w2 b2 i = cls z X W1 B1 W2 B2 I := by
  subst hw1 hb1 hw2 hb2
  unfold cls
  rw [hc]
  refine congrArg (· + b2 (ix2 (0 : Fin 1) (i 1))) ?_
  refine mm_congr _ _ w2 w2 I i (fun q => ?_) (fun q => by rw [hc])
  show max (mm x w1 (ix2 (i 0) q) + b1 (ix2 (0 : Fin 1) q)) z = max (mm X w1 (ix2 (I 0) q) + b1 (ix2 (0 : Fin 1) q)) z
  rw [mm_congr X x w1 w1 (ix2 (I 0) q) (ix2 (i 0) q) hx (fun _ => rfl)]

end Cert.GcnSpec

end
-- ==== Proof.LibLayoutCols.lean ====
/-
  Layout operations of small rank read at an index written by coordinates: the forms a kernel meets when it keeps a
  reduced axis as a unit axis (`keepdims`) and when it expands a matrix over a new middle axis.

  * a vector of length `a` cast to a column `[a, 1]`;
  * a column `[a, 1]` broadcast along its unit axis to `[a, b]`;
  * a matrix `[a, b]` cast to `[a, 1, b]`, and that broadcast along the new axis to `[a, k, b]`;
  * a column `[k, 1]` cast to `[1, k, 1]`, and that broadcast along both unit axes to `[a, k, b]`.
  A cast keeps the row-major position of an element; a broadcast reads coordinate `0` on the operand's unit axes.
-/
import Idealize.ShloMosaic.Lib.Pipeline.Value
import Idealize.ShloMosaic.Lib.ValueIdx

namespace Cert.LibLayoutCols

open Idealize.ShloMosaic Idealize.ShloMosaic.ValueIdx

variable {α : Type}

/-- A vector of length `a` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, 1, b]` reads, at `(p, u, c)`, the matrix at `(p, c)`. -/
theorem shapeCast_ab_a1b_apply {a b : ℕ} (x : (⟨2, ![a, b]⟩ : Shape).Idx → α) (h : (⟨2, ![a, b]⟩ : Shape).ShapeCasts ⟨3, ![a, 1, b]⟩)
    (p : Fin a) (u : Fin 1) (c : Fin b) : shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An array `[a, 1, b]` broadcast to `[a, k, b]` reads, at `(p, q, c)`, the operand at `(p, 0, c)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (q : Fin k) (c : Fin b) :
    broadcastTo ⟨3, ![a, k, b]⟩ x h (ix3 p q c) = x (ix3 p (0 : Fin 1) c) := by
  refine broadcastTo_apply x h (ix3 p q c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if b = 1 then 0 else c.val
    split
    · have := c.isLt; omega
    · rfl

/-- A column `[k, 1]` cast to `[1, k, 1]` reads, at `(u, q, w)`, the column at row `q`. -/
theorem shapeCast_k1_1k1_apply {k : ℕ} (x : (⟨2, ![k, 1]⟩ : Shape).Idx → α) (h : (⟨2, ![k, 1]⟩ : Shape).ShapeCasts ⟨3, ![1, k, 1]⟩)
    (u : Fin 1) (q : Fin k) (w : Fin 1) : shapeCast ⟨3, ![1, k, 1]⟩ x h (ix3 u q w) = x (ix2 q (0 : Fin 1)) :=
  shapeCast_apply x h _ _ (by
    have hu : u.val = 0 := by omega
    have hw : w.val = 0 := by omega
    rw [Shape.rowMajor_val_three, Shape.rowMajor_val_two]
    show q.val * 1 + 0 = (u.val * k + q.val) * 1 + w.val
    rw [hu, hw, Nat.zero_mul, Nat.zero_add])

/-- An array `[1, k, 1]` broadcast to `[a, k, b]` reads, at `(p, q, c)`, the operand at `(0, q, 0)`. -/
theorem broadcastTo_1k1_akb_apply {a k b : ℕ} (x : (⟨3, ![1, k, 1]⟩ : Shape).Idx → α)
    (h : (⟨3, ![1, k, 1]⟩ : Shape).Broadcasts ⟨3, ![a, k, b]⟩) (p : Fin a) (q : Fin k) (c : Fin b) :
    broadcastTo ⟨3, ![a, k, b]⟩ x h (ix3 p q c) = x (ix3 (0 : Fin 1) q (0 : Fin 1)) := by
  refine broadcastTo_apply x h (ix3 p q c) (ix3 (0 : Fin 1) q (0 : Fin 1)) fun ax => ?_
  match ax with
  | ⟨0, _⟩ => rfl
  | ⟨1, _⟩ =>
    show q.val = if k = 1 then 0 else q.val
    split
    · have := q.isLt; omega
    · rfl
  | ⟨2, _⟩ => rfl

end Cert.LibLayoutCols
-- ==== Proof.RefLayers.lean ====
/-
  The reference program's stages as the network's three functions: each `dot_general` is the matrix product, each
  layer's chain of broadcasts, sums, products, the reciprocal square root and the positive part is the layer combine
  read at an index (a keepdims column `[n] → [n, 1]` reads the vector at its row, a row `[b] → [1, b]` at its column),
  and the last nine operations are the two-layer head.
-/
import proofs.«132452_j56418690400931_1_alg».proof.Proof.Gen.ReferenceIdeal.Read
import proofs.«132452_j56418690400931_1_alg».proof.Proof.Spec
import proofs.«132452_j56418690400931_1_alg».proof.Proof.LibLayoutCols
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Layers

open Cert.ReferenceIdeal Cert.ReferenceIdeal.Gen Cert.ReferenceIdeal.Read Idealize.ShloMosaic Idealize.ShloMosaic.ValueIdx Cert.GcnSpec

/-- The variance floor the normalisation adds (the one binary word both programs carry). -/
abbrev εw : EReal := Ideal.ofBits .f32 0x3727C5AC#32
/-- The zero word the positive part compares with. -/
abbrev zw : EReal := Ideal.ofBits .f32 0x00000000#32

/-- The matrix product read at coordinates. -/
theorem mm_ix2 {a k b : ℕ} (x : (⟨2, ![a, k]⟩ : Shape).Idx → EReal) (w : (⟨2, ![k, b]⟩ : Shape).Idx → EReal) (p : Fin a) (c : Fin b) :
    mm x w (ix2 p c) = ∑ q : Fin k, x (ix2 p q) * w (ix2 q c) := rfl

/-- The layer combine read at coordinates. -/
theorem comb_ix2 {a b : ℕ} (ε z : EReal) (hl ag : (⟨2, ![a, b]⟩ : Shape).Idx → EReal) (sn : (⟨2, ![a, 1]⟩ : Shape).Idx → EReal)
    (bi ga be rm rv : (⟨2, ![1, b]⟩ : Shape).Idx → EReal) (p : Fin a) (c : Fin b) :
    comb ε z hl ag sn bi ga be rm rv (ix2 p c)
      = max (((((ag (ix2 p c) + sn (ix2 p (0 : Fin 1)) * hl (ix2 p c)) + bi (ix2 (0 : Fin 1) c)) - rm (ix2 (0 : Fin 1) c))
          * Ideal.rsqrt (rv (ix2 (0 : Fin 1) c) + ε)) * ga (ix2 (0 : Fin 1) c) + be (ix2 (0 : Fin 1) c)) z := rfl

/-- The head read at coordinates. -/
theorem cls_ix2 {a h k : ℕ} (z : EReal) (x : (⟨2, ![a, h]⟩ : Shape).Idx → EReal) (w1 : (⟨2, ![h, k]⟩ : Shape).Idx → EReal)
    (b1 : (⟨2, ![1, k]⟩ : Shape).Idx → EReal) (w2 : (⟨2, ![k, 1]⟩ : Shape).Idx → EReal)
    (b2 : (⟨2, ![1, 1]⟩ : Shape).Idx → EReal) (p : Fin a) (u : Fin 1) :
    cls z x w1 b1 w2 b2 (ix2 p u)
      = mm (fun j : (⟨2, ![a, k]⟩ : Shape).Idx => max (mm x w1 j + b1 (ix2 (0 : Fin 1) (j 1))) z) w2 (ix2 p u)
        + b2 (ix2 (0 : Fin 1) u) := rfl

/-- A vector cast to a column is the vector broadcast along a new unit axis: both read the vector at the row. -/
theorem col_cast_eq_bcast {α : Type} (n : S1600000.Idx → α) (hc : S1600000.ShapeCasts S1600000x1) :
    shapeCast S1600000x1 n hc = broadcastInDim S1600000x1 ![0] bcast_S1600000_S1600000x1_0 n := by
  funext i
  have hb : broadcastInDim S1600000x1 ![0] bcast_S1600000_S1600000x1_0 n i = n (idx_main_v34 i) :=
    broadcastInDim_apply _ bcast_S1600000_S1600000x1_0 n i (idx_main_v34 i) (fun a => match a with
      | ⟨0, _⟩ => by show (i 0).val = if (1600000 : Nat) = 1 then 0 else (i 0).val; rw [if_neg (by decide)])
  rw [hb]
  exact shapeCast_apply n hc i (idx_main_v34 i) (by
    rw [Shape.rowMajor_val_one, Shape.rowMajor_val_two]
    have h1 : (i 1).val < 1 := (i 1).isLt
    show (i 0).val = (i 0).val * 1 + (i 1).val
    omega)

/-- First layer's linear map. -/
theorem lin1 (x0 : (⟨S100000x1024, .f32⟩ : BufTy).Contents (Elt Ideal)) (x2 : (⟨S1024x128, .f32⟩ : BufTy).Contents (Elt Ideal)) : val_main_v11 (F := Ideal) x0 x2 = mm x0 x2 := by
  funext i
  refine (val_main_v11_apply x0 x2 i).trans (Finset.sum_congr rfl fun k _ => ?_)
  have el : lidx_main_v11 i k = ix2 (i 0) k := funext fun a => Fin.ext (by match a with | ⟨0, _⟩ => rfl | ⟨1, _⟩ => rfl)
  have er : ridx_main_v11 i k = ix2 k (i 1) := funext fun a => Fin.ext (by match a with | ⟨0, _⟩ => rfl | ⟨1, _⟩ => rfl)
  rw [el, er]
  rfl

/-- Second layer's linear map. -/
theorem lin2 (x0 : (⟨S100000x1024, .f32⟩ : BufTy).Contents (Elt Ideal)) (x1 : (⟨S2x1600000, .i32⟩ : BufTy).Contents (Elt Ideal)) (x2 : (⟨S1024x128, .f32⟩ : BufTy).Contents (Elt Ideal)) (x3 : (⟨S128, .f32⟩ : BufTy).Contents (Elt Ideal)) (x4 : (⟨S128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) :
    val_main_v72 (F := Ideal) x0 x1 x2 x3 x4 x8 x9 x10 x11 = mm (val_main_v71 (F := Ideal) x0 x1 x2 x3 x8 x9 x10 x11) x4 := by
  funext i
  refine (val_main_v72_apply x0 x1 x2 x3 x4 x8 x9 x10 x11 i).trans (Finset.sum_congr rfl fun k _ => ?_)
  have el : lidx_main_v72 i k = ix2 (i 0) k := funext fun a => Fin.ext (by match a with | ⟨0, _⟩ => rfl | ⟨1, _⟩ => rfl)
  have er : ridx_main_v72 i k = ix2 k (i 1) := funext fun a => Fin.ext (by match a with | ⟨0, _⟩ => rfl | ⟨1, _⟩ => rfl)
  rw [el, er]
  rfl

/-- Third layer's linear map. -/
theorem lin3 (x0 : (⟨S100000x1024, .f32⟩ : BufTy).Contents (Elt Ideal)) (x1 : (⟨S2x1600000, .i32⟩ : BufTy).Contents (Elt Ideal)) (x2 : (⟨S1024x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) :
    val_main_v133 (F := Ideal) x0 x1 x2 x3 x4 x5 x6 x8 x9 x10 x11 = mm (val_main_v132 (F := Ideal) x0 x1 x2 x3 x4 x5 x8 x9 x10 x11) x6 := by
  funext i
  refine (val_main_v133_apply x0 x1 x2 x3 x4 x5 x6 x8 x9 x10 x11 i).trans (Finset.sum_congr rfl fun k _ => ?_)
  have el : lidx_main_v133 i k = ix2 (i 0) k := funext fun a => Fin.ext (by match a with | ⟨0, _⟩ => rfl | ⟨1, _⟩ => rfl)
  have er : ridx_main_v133 i k = ix2 k (i 1) := funext fun a => Fin.ext (by match a with | ⟨0, _⟩ => rfl | ⟨1, _⟩ => rfl)
  rw [el, er]
  rfl

/-- First layer after its linear map: the combine of the linear map's result, the aggregated messages, the
    self-loop weights as a column, and bias, scale, shift, running mean and running variance as rows (row 0 of each table). -/
theorem layer1 (x0 : (⟨S100000x1024, .f32⟩ : BufTy).Contents (Elt Ideal)) (x1 : (⟨S2x1600000, .i32⟩ : BufTy).Contents (Elt Ideal)) (x2 : (⟨S1024x128, .f32⟩ : BufTy).Contents (Elt Ideal)) (x3 : (⟨S128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal))
    (hc : S100000.ShapeCasts S100000x1) (hr : S128.ShapeCasts S1x128) :
    val_main_v71 (F := Ideal) x0 x1 x2 x3 x8 x9 x10 x11
      = comb εw zw (val_main_v11 (F := Ideal) x0 x2) (val_main_v39 (F := Ideal) x0 x1 x2) (shapeCast S100000x1 (val_main_v40 (F := Ideal) x1) hc)
          (shapeCast S1x128 x3 hr) (shapeCast S1x128 (val_main_v62 (F := Ideal) x8) hr) (shapeCast S1x128 (val_main_v67 (F := Ideal) x9) hr)
          (shapeCast S1x128 (val_main_v49 (F := Ideal) x10) hr) (shapeCast S1x128 (val_main_v54 (F := Ideal) x11) hr) := by
  funext i
  obtain ⟨p, c, rfl⟩ : ∃ (p : Fin 100000) (c : Fin 128), i = ix2 p c := ⟨i 0, i 1, eq_ix2 i⟩
  have e41 : idx_main_v41 (idx_main_v42 (ix2 p c)) = ix1 p := funext fun a => Fin.ext (by match a with | ⟨0, _⟩ => rfl)
  have e45 : idx_main_v45 (idx_main_v46 (ix2 p c)) = ix1 c := funext fun a => Fin.ext (by match a with | ⟨0, _⟩ => rfl)
  have e50 : idx_main_v50 (idx_main_v51 (ix2 p c)) = ix1 c := funext fun a => Fin.ext (by match a with | ⟨0, _⟩ => rfl)
  have e58 : idx_main_v58 (idx_main_v59 (ix2 p c)) = ix1 c := funext fun a => Fin.ext (by match a with | ⟨0, _⟩ => rfl)
  have e63 : idx_main_v63 (idx_main_v64 (ix2 p c)) = ix1 c := funext fun a => Fin.ext (by match a with | ⟨0, _⟩ => rfl)
  have e68 : idx_main_v68 (idx_main_v69 (ix2 p c)) = ix1 c := funext fun a => Fin.ext (by match a with | ⟨0, _⟩ => rfl)
  rw [val_main_v71_apply, val_main_v70_apply, val_main_v65_apply, val_main_v60_apply, val_main_v52_apply,
    val_main_v47_apply, val_main_v44_apply, val_main_v43_apply, val_main_v42_apply, val_main_v41_apply,
    val_main_v46_apply, val_main_v45_apply, val_main_v51_apply, val_main_v50_apply, val_main_v59_apply,
    val_main_v58_apply, val_main_v57_apply, val_main_v56_apply, val_main_v55_apply, val_main_cst_8_apply,
    val_main_v64_apply, val_main_v63_apply, val_main_v69_apply, val_main_v68_apply, val_main_call0_v0_apply,
    val_main_call0_cst_apply, e41, e45, e50, e58, e63, e68, comb_ix2]
  simp only [LibLayoutCols.shapeCast_a_a1_apply, shapeCast_a_1a_apply, Ideal.maximumf_def, Ideal.addf_def, Ideal.mulf_def,
    Ideal.subf_def, Ideal.hostUnary_rsqrt_def, Ideal.ofBits_def]

/-- Second layer after its linear map (row 1 of each table). -/
theorem layer2 (x0 : (⟨S100000x1024, .f32⟩ : BufTy).Contents (Elt Ideal)) (x1 : (⟨S2x1600000, .i32⟩ : BufTy).Contents (Elt Ideal)) (x2 : (⟨S1024x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal))
    (hc : S100000.ShapeCasts S100000x1) (hr : S128.ShapeCasts S1x128) :
    val_main_v132 (F := Ideal) x0 x1 x2 x3 x4 x5 x8 x9 x10 x11
      = comb εw zw (val_main_v72 (F := Ideal) x0 x1 x2 x3 x4 x8 x9 x10 x11) (val_main_v100 (F := Ideal) x0 x1 x2 x3 x4 x8 x9 x10 x11) (shapeCast S100000x1 (val_main_v101 (F := Ideal) x1) hc)
          (shapeCast S1x128 x5 hr) (shapeCast S1x128 (val_main_v123 (F := Ideal) x8) hr) (shapeCast S1x128 (val_main_v128 (F := Ideal) x9) hr)
          (shapeCast S1x128 (val_main_v110 (F := Ideal) x10) hr) (shapeCast S1x128 (val_main_v115 (F := Ideal) x11) hr) := by
  funext i
  obtain ⟨p, c, rfl⟩ : ∃ (p : Fin 100000) (c : Fin 128), i = ix2 p c := ⟨i 0, i 1, eq_ix2 i⟩
  have e41 : idx_main_v102 (idx_main_v103 (ix2 p c)) = ix1 p := funext fun a => Fin.ext (by match a with | ⟨0, _⟩ => rfl)
  have e45 : idx_main_v106 (idx_main_v107 (ix2 p c)) = ix1 c := funext fun a => Fin.ext (by match a with | ⟨0, _⟩ => rfl)
  have e50 : idx_main_v111 (idx_main_v112 (ix2 p c)) = ix1 c := funext fun a => Fin.ext (by match a with | ⟨0, _⟩ => rfl)
  have e58 : idx_main_v119 (idx_main_v120 (ix2 p c)) = ix1 c := funext fun a => Fin.ext (by match a with | ⟨0, _⟩ => rfl)
  have e63 : idx_main_v124 (idx_main_v125 (ix2 p c)) = ix1 c := funext fun a => Fin.ext (by match a with | ⟨0, _⟩ => rfl)
  have e68 : idx_main_v129 (idx_main_v130 (ix2 p c)) = ix1 c := funext fun a => Fin.ext (by match a with | ⟨0, _⟩ => rfl)
  rw [val_main_v132_apply, val_main_v131_apply, val_main_v126_apply, val_main_v121_apply, val_main_v113_apply,
    val_main_v108_apply, val_main_v105_apply, val_main_v104_apply, val_main_v103_apply, val_main_v102_apply,
    val_main_v107_apply, val_main_v106_apply, val_main_v112_apply, val_main_v111_apply, val_main_v120_apply,
    val_main_v119_apply, val_main_v118_apply, val_main_v117_apply, val_main_v116_apply, val_main_cst_16_apply,
    val_main_v125_apply, val_main_v124_apply, val_main_v130_apply, val_main_v129_apply, val_main_call1_v0_apply,
    val_main_call1_cst_apply, e41, e45, e50, e58, e63, e68, comb_ix2]
  simp only [LibLayoutCols.shapeCast_a_a1_apply, shapeCast_a_1a_apply, Ideal.maximumf_def, Ideal.addf_def, Ideal.mulf_def,
    Ideal.subf_def, Ideal.hostUnary_rsqrt_def, Ideal.ofBits_def]

/-- Third layer after its linear map (row 2 of each table). -/
theorem layer3 (x0 : (⟨S100000x1024, .f32⟩ : BufTy).Contents (Elt Ideal)) (x1 : (⟨S2x1600000, .i32⟩ : BufTy).Contents (Elt Ideal)) (x2 : (⟨S1024x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal))
    (hc : S100000.ShapeCasts S100000x1) (hr : S128.ShapeCasts S1x128) :
    val_main_v193 (F := Ideal) x0 x1 x2 x3 x4 x5 x6 x7 x8 x9 x10 x11
      = comb εw zw (val_main_v133 (F := Ideal) x0 x1 x2 x3 x4 x5 x6 x8 x9 x10 x11) (val_main_v161 (F := Ideal) x0 x1 x2 x3 x4 x5 x6 x8 x9 x10 x11) (shapeCast S100000x1 (val_main_v162 (F := Ideal) x1) hc)
          (shapeCast S1x128 x7 hr) (shapeCast S1x128 (val_main_v184 (F := Ideal) x8) hr) (shapeCast S1x128 (val_main_v189 (F := Ideal) x9) hr)
          (shapeCast S1x128 (val_main_v171 (F := Ideal) x10) hr) (shapeCast S1x128 (val_main_v176 (F := Ideal) x11) hr) := by
  funext i
  obtain ⟨p, c, rfl⟩ : ∃ (p : Fin 100000) (c : Fin 128), i = ix2 p c := ⟨i 0, i 1, eq_ix2 i⟩
  have e41 : idx_main_v163 (idx_main_v164 (ix2 p c)) = ix1 p := funext fun a => Fin.ext (by match a with | ⟨0, _⟩ => rfl)
  have e45 : idx_main_v167 (idx_main_v168 (ix2 p c)) = ix1 c := funext fun a => Fin.ext (by match a with | ⟨0, _⟩ => rfl)
  have e50 : idx_main_v172 (idx_main_v173 (ix2 p c)) = ix1 c := funext fun a => Fin.ext (by match a with | ⟨0, _⟩ => rfl)
  have e58 : idx_main_v180 (idx_main_v181 (ix2 p c)) = ix1 c := funext fun a => Fin.ext (by match a with | ⟨0, _⟩ => rfl)
  have e63 : idx_main_v185 (idx_main_v186 (ix2 p c)) = ix1 c := funext fun a => Fin.ext (by match a with | ⟨0, _⟩ => rfl)
  have e68 : idx_main_v190 (idx_main_v191 (ix2 p c)) = ix1 c := funext fun a => Fin.ext (by match a with | ⟨0, _⟩ => rfl)
  rw [val_main_v193_apply, val_main_v192_apply, val_main_v187_apply, val_main_v182_apply, val_main_v174_apply,
    val_main_v169_apply, val_main_v166_apply, val_main_v165_apply, val_main_v164_apply, val_main_v163_apply,
    val_main_v168_apply, val_main_v167_apply, val_main_v173_apply, val_main_v172_apply, val_main_v181_apply,
    val_main_v180_apply, val_main_v179_apply, val_main_v178_apply, val_main_v177_apply, val_main_cst_24_apply,
    val_main_v186_apply, val_main_v185_apply, val_main_v191_apply, val_main_v190_apply, val_main_call2_v0_apply,
    val_main_call2_cst_apply, e41, e45, e50, e58, e63, e68, comb_ix2]
  simp only [LibLayoutCols.shapeCast_a_a1_apply, shapeCast_a_1a_apply, Ideal.maximumf_def, Ideal.addf_def, Ideal.mulf_def,
    Ideal.subf_def, Ideal.hostUnary_rsqrt_def, Ideal.ofBits_def]

/-- The head: the program's result is the two-layer head of the third layer's output, its biases as rows. -/
theorem head (x0 : (⟨S100000x1024, .f32⟩ : BufTy).Contents (Elt Ideal)) (x1 : (⟨S2x1600000, .i32⟩ : BufTy).Contents (Elt Ideal)) (x2 : (⟨S1024x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128, .f32⟩ : BufTy).Contents (Elt Ideal)) (x9 : (⟨S3x128, .f32⟩ : BufTy).Contents (Elt Ideal)) (x10 : (⟨S3x128, .f32⟩ : BufTy).Contents (Elt Ideal)) (x11 : (⟨S3x128, .f32⟩ : BufTy).Contents (Elt Ideal)) (x12 : (⟨S128x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal))
    (h13 : S64.ShapeCasts S1x64) (h15 : S1.ShapeCasts S1x1) :
    val_main_v202 (F := Ideal) x0 x1 x2 x3 x4 x5 x6 x7 x8 x9 x10 x11 x12 x13 x14 x15
      = cls zw (val_main_v193 (F := Ideal) x0 x1 x2 x3 x4 x5 x6 x7 x8 x9 x10 x11) x12 (shapeCast S1x64 x13 h13) x14 (shapeCast S1x1 x15 h15) := by
  have lin4 : val_main_v194 (F := Ideal) x0 x1 x2 x3 x4 x5 x6 x7 x8 x9 x10 x11 x12 = mm (val_main_v193 (F := Ideal) x0 x1 x2 x3 x4 x5 x6 x7 x8 x9 x10 x11) x12 := by
    funext i
    refine (val_main_v194_apply x0 x1 x2 x3 x4 x5 x6 x7 x8 x9 x10 x11 x12 i).trans (Finset.sum_congr rfl fun k _ => ?_)
    have el : lidx_main_v194 i k = ix2 (i 0) k := funext fun a => Fin.ext (by match a with | ⟨0, _⟩ => rfl | ⟨1, _⟩ => rfl)
    have er : ridx_main_v194 i k = ix2 k (i 1) := funext fun a => Fin.ext (by match a with | ⟨0, _⟩ => rfl | ⟨1, _⟩ => rfl)
    rw [el, er]
    rfl
  have lin5 : val_main_v199 (F := Ideal) x0 x1 x2 x3 x4 x5 x6 x7 x8 x9 x10 x11 x12 x13 x14 = mm (val_main_v198 (F := Ideal) x0 x1 x2 x3 x4 x5 x6 x7 x8 x9 x10 x11 x12 x13) x14 := by
    funext i
    refine (val_main_v199_apply x0 x1 x2 x3 x4 x5 x6 x7 x8 x9 x10 x11 x12 x13 x14 i).trans (Finset.sum_congr rfl fun k _ => ?_)
    have el : lidx_main_v199 i k = ix2 (i 0) k := funext fun a => Fin.ext (by match a with | ⟨0, _⟩ => rfl | ⟨1, _⟩ => rfl)
    have er : ridx_main_v199 i k = ix2 k (i 1) := funext fun a => Fin.ext (by match a with | ⟨0, _⟩ => rfl | ⟨1, _⟩ => rfl)
    rw [el, er]
    rfl
  have h198 : val_main_v198 (F := Ideal) x0 x1 x2 x3 x4 x5 x6 x7 x8 x9 x10 x11 x12 x13
      = fun j : (⟨2, ![100000, 64]⟩ : Shape).Idx =>
          max (mm (val_main_v193 (F := Ideal) x0 x1 x2 x3 x4 x5 x6 x7 x8 x9 x10 x11) x12 j + shapeCast S1x64 x13 h13 (ix2 (0 : Fin 1) (j 1))) zw := by
    funext j
    obtain ⟨p, q, rfl⟩ : ∃ (p : Fin 100000) (q : Fin 64), j = ix2 p q := ⟨j 0, j 1, eq_ix2 j⟩
    have e195 : idx_main_v195 (idx_main_v196 (ix2 p q)) = ix1 q := funext fun a => Fin.ext (by match a with | ⟨0, _⟩ => rfl)
    rw [val_main_v198_apply, val_main_v197_apply, val_main_v196_apply, val_main_v195_apply, val_main_call3_v0_apply,
      val_main_call3_cst_apply, e195, lin4]
    show _ = max (_ + shapeCast S1x64 x13 h13 (ix2 (0 : Fin 1) q)) _
    rw [shapeCast_a_1a_apply x13 h13]
    rfl
  funext i
  obtain ⟨p, u, rfl⟩ : ∃ (p : Fin 100000) (u : Fin 1), i = ix2 p u := ⟨i 0, i 1, eq_ix2 i⟩
  have e200 : idx_main_v200 (idx_main_v201 (ix2 p u)) = ix1 u := funext fun a => Fin.ext (by
    match a with
    | ⟨0, _⟩ =>
      have hu : u.val < 1 := u.isLt
      show 0 = u.val
      omega)
  rw [val_main_v202_apply, val_main_v201_apply, val_main_v200_apply, e200, lin5, h198, cls_ix2,
    shapeCast_a_1a_apply x15 h15]
  rfl

end Cert.ReferenceIdeal.Layers

end
-- ==== Proof.HostStretches.lean ====
/-
  The host operations between the kernel program's custom calls, read over an arbitrary valuation of the buffers: each
  stretch leaves every buffer it does not write as it was, and writes, at the buffers the custom calls read, the
  reference program's own stages — the two programs apply the same slices, index fix-ups, gathers and scatter-adds to
  the same arguments.
-/
import proofs.«132452_j56418690400931_1_alg».proof.Proof.Gen.KernelIdeal.Launch
import proofs.«132452_j56418690400931_1_alg».proof.Proof.Gen.ReferenceIdeal.Read
import Idealize.ShloMosaic.Lib.StableHlo.Run
import proofs.«132452_j56418690400931_1_alg».proof.Proof.RefLayers

noncomputable section

namespace Cert.KernelIdeal.Stretch

open Cert.KernelIdeal Cert.KernelIdeal.Gen Idealize.ShloMosaic Idealize.ShloMosaic.TcCoe Idealize.ShloMosaic.StableHlo Cert.ReferenceIdeal.Read

variable (W : Valuation τ sig (Elt Ideal))

local notation "dr" => Proc.devRef (τ := τ) Proc.tc

/-! ## What each stretch leaves alone -/

/-- Every buffer the first stretch writes. -/
def written0 : List (Ref sig .tc) :=
  [main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28]

theorem hostOps0_writes : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals
    rw [Finset.singleton_subset_iff, List.mem_toFinset, List.mem_map]
    exact ⟨_, by decide, rfl⟩

/-- A buffer the stretch does not write keeps its contents. -/
theorem keep0 (r : Ref sig .tc) (hr : r ∉ written0) : StableHlo.after hostOps0 W (dr r) = W (dr r) :=
  StableHlo.after_of_writes_sub hostOps0 W hostOps0_writes hr

/-- Every buffer the next stretch writes. -/
def written1 : List (Ref sig .tc) :=
  [main_c_5, main_v30, main_v31, main_c_6, main_v32, main_v33, main_v34, main_v35, main_v36, main_v37, main_v38, main_cst_7, main_v39, main_v40, main_v41, main_v42, main_v43, main_v44, main_v45, main_v46, main_v47, main_v48, main_v49, main_v50, main_v51, main_v52, main_v53, main_v54]

theorem hostOps1_writes : (hostOps1 : List (HloOp τ sig (Elt Ideal))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes]
  repeat' apply And.intro
  all_goals
    rw [Finset.singleton_subset_iff, List.mem_toFinset, List.mem_map]
    exact ⟨_, by decide, rfl⟩

/-- A buffer the stretch does not write keeps its contents. -/
theorem keep1 (r : Ref sig .tc) (hr : r ∉ written1) : StableHlo.after hostOps1 W (dr r) = W (dr r) :=
  StableHlo.after_of_writes_sub hostOps1 W hostOps1_writes hr

/-- Every buffer the next stretch writes. -/
def written3 : List (Ref sig .tc) :=
  [main_c_8, main_v57, main_v58, main_c_9, main_v59, main_v60, main_v61, main_v62, main_v63, main_v64, main_v65, main_cst_10, main_v66, main_v67, main_v68, main_v69, main_v70, main_v71, main_v72, main_v73, main_v74, main_v75, main_v76, main_v77, main_v78, main_v79, main_v80, main_v81]

theorem hostOps3_writes : (hostOps3 : List (HloOp τ sig (Elt Ideal))).Forall fun op =>
    op.writes ⊆ (written3.map (Proc.devRef (τ := τ) .tc)).toFinset := by
  simp only [hostOps3, List.Forall, StableHlo.nullary_writes, StableHlo.unary_writes, StableHlo.binary_writes,
    StableHlo.ternary_writes, StableHlo.reshape_writes]
  repeat' apply And.intro
  all_goals
    rw [Finset.singleton_subset_iff, List.mem_toFinset, List.mem_map]
    exact ⟨_, by decide, rfl⟩

/-- A buffer the stretch does not write keeps its contents. -/
theorem keep3 (r : Ref sig .tc) (hr : r ∉ written3) : StableHlo.after hostOps3 W (dr r) = W (dr r) :=
  StableHlo.after_of_writes_sub hostOps3 W hostOps3_writes hr

/-- Every buffer the next stretch writes. -/
def written5 : List (Ref sig .tc) :=
  [main_c_11, main_v84, main_v85, main_c_12, main_v86, main_v87, main_v88, main_v89, main_v90, main_v91, main_v92, main_cst_13, main_v93, main_v94, main_v95, main_v96, main_v97, main_v98, main_v99, main_v100, main_v101, main_v102, main_v103, main_v104, main_v105, main_v106, main_v107, main_v108]

theorem hostOps5_writes : (hostOps5 : List (HloOp τ sig (Elt Ideal))).Forall fun op =>
    op.writes ⊆ (written5.map (Proc.devRef (τ := τ) .tc)).toFinset := by
  simp only [hostOps5, List.Forall, StableHlo.nullary_writes, StableHlo.unary_writes, StableHlo.binary_writes,
    StableHlo.ternary_writes, StableHlo.reshape_writes]
  repeat' apply And.intro
  all_goals
    rw [Finset.singleton_subset_iff, List.mem_toFinset, List.mem_map]
    exact ⟨_, by decide, rfl⟩

/-- A buffer the stretch does not write keeps its contents. -/
theorem keep5 (r : Ref sig .tc) (hr : r ∉ written5) : StableHlo.after hostOps5 W (dr r) = W (dr r) :=
  StableHlo.after_of_writes_sub hostOps5 W hostOps5_writes hr

/-- Every buffer the next stretch writes. -/
def written6 : List (Ref sig .tc) :=
  [main_v110, main_v111]

theorem hostOps6_writes : (hostOps6 : List (HloOp τ sig (Elt Ideal))).Forall fun op =>
    op.writes ⊆ (written6.map (Proc.devRef (τ := τ) .tc)).toFinset := by
  simp only [hostOps6, List.Forall, StableHlo.nullary_writes, StableHlo.unary_writes, StableHlo.binary_writes,
    StableHlo.ternary_writes, StableHlo.reshape_writes]
  repeat' apply And.intro
  all_goals
    rw [Finset.singleton_subset_iff, List.mem_toFinset, List.mem_map]
    exact ⟨_, by decide, rfl⟩

/-- A buffer the stretch does not write keeps its contents. -/
theorem keep6 (r : Ref sig .tc) (hr : r ∉ written6) : StableHlo.after hostOps6 W (dr r) = W (dr r) :=
  StableHlo.after_of_writes_sub hostOps6 W hostOps6_writes hr

/-! ## What the stretches write, at the buffers the custom calls read -/

/-- The edges' source nodes. -/
theorem s0_v1 : StableHlo.after hostOps0 W (dr main_v1) = val_main_v1 (F := Ideal) (W (dr main_arg1)) := by
  after_results_simp
  rfl

/-- The edges' target nodes. -/
theorem s0_v3 : StableHlo.after hostOps0 W (dr main_v3) = val_main_v3 (F := Ideal) (W (dr main_arg1)) := by
  after_results_simp
  rfl

/-- The self-loop weight of each node (the inverse degree), as a column. -/
theorem s0_v12 : StableHlo.after hostOps0 W (dr main_v12) = shapeCast S100000x1 (val_main_v40 (F := Ideal) (W (dr main_arg1))) shapeCasts_S100000_S100000x1 := by
  after_results_simp
  rfl

/-- The weight of each edge (the product of its two ends' inverse root degrees), as a column. -/
theorem s0_v28 : StableHlo.after hostOps0 W (dr main_v28) = shapeCast S1600000x1 (val_main_v26 (F := Ideal) (W (dr main_arg1))) shapeCasts_S1600000_S1600000x1 := by
  after_results_simp
  rfl

/-- The layer's bias as a row. -/
theorem s1_v50 : StableHlo.after hostOps1 W (dr main_v50) = shapeCast S1x128 (W (dr main_arg3)) shapeCasts_S128_S1x128 := by
  after_results_simp
  rfl

/-- The layer's row of the scale table, as a row. -/
theorem s1_v51 : StableHlo.after hostOps1 W (dr main_v51) = shapeCast S1x128 (val_main_v62 (F := Ideal) (W (dr main_arg8))) shapeCasts_S128_S1x128 := by
  after_results_simp
  rfl

/-- The layer's row of the shift table, as a row. -/
theorem s1_v52 : StableHlo.after hostOps1 W (dr main_v52) = shapeCast S1x128 (val_main_v67 (F := Ideal) (W (dr main_arg9))) shapeCasts_S128_S1x128 := by
  after_results_simp
  rfl

/-- The layer's row of the running-mean table, as a row. -/
theorem s1_v53 : StableHlo.after hostOps1 W (dr main_v53) = shapeCast S1x128 (val_main_v49 (F := Ideal) (W (dr main_arg10))) shapeCasts_S128_S1x128 := by
  after_results_simp
  rfl

/-- The layer's row of the running-variance table, as a row. -/
theorem s1_v54 : StableHlo.after hostOps1 W (dr main_v54) = shapeCast S1x128 (val_main_v54 (F := Ideal) (W (dr main_arg11))) shapeCasts_S128_S1x128 := by
  after_results_simp
  rfl

/-- The layer's bias as a row. -/
theorem s3_v77 : StableHlo.after hostOps3 W (dr main_v77) = shapeCast S1x128 (W (dr main_arg5)) shapeCasts_S128_S1x128 := by
  after_results_simp
  rfl

/-- The layer's row of the scale table, as a row. -/
theorem s3_v78 : StableHlo.after hostOps3 W (dr main_v78) = shapeCast S1x128 (val_main_v123 (F := Ideal) (W (dr main_arg8))) shapeCasts_S128_S1x128 := by
  after_results_simp
  rfl

/-- The layer's row of the shift table, as a row. -/
theorem s3_v79 : StableHlo.after hostOps3 W (dr main_v79) = shapeCast S1x128 (val_main_v128 (F := Ideal) (W (dr main_arg9))) shapeCasts_S128_S1x128 := by
  after_results_simp
  rfl

/-- The layer's row of the running-mean table, as a row. -/
theorem s3_v80 : StableHlo.after hostOps3 W (dr main_v80) = shapeCast S1x128 (val_main_v110 (F := Ideal) (W (dr main_arg10))) shapeCasts_S128_S1x128 := by
  after_results_simp
  rfl

/-- The layer's row of the running-variance table, as a row. -/
theorem s3_v81 : StableHlo.after hostOps3 W (dr main_v81) = shapeCast S1x128 (val_main_v115 (F := Ideal) (W (dr main_arg11))) shapeCasts_S128_S1x128 := by
  after_results_simp
  rfl

/-- The layer's bias as a row. -/
theorem s5_v104 : StableHlo.after hostOps5 W (dr main_v104) = shapeCast S1x128 (W (dr main_arg7)) shapeCasts_S128_S1x128 := by
  after_results_simp
  rfl

/-- The layer's row of the scale table, as a row. -/
theorem s5_v105 : StableHlo.after hostOps5 W (dr main_v105) = shapeCast S1x128 (val_main_v184 (F := Ideal) (W (dr main_arg8))) shapeCasts_S128_S1x128 := by
  after_results_simp
  rfl

/-- The layer's row of the shift table, as a row. -/
theorem s5_v106 : StableHlo.after hostOps5 W (dr main_v106) = shapeCast S1x128 (val_main_v189 (F := Ideal) (W (dr main_arg9))) shapeCasts_S128_S1x128 := by
  after_results_simp
  rfl

/-- The layer's row of the running-mean table, as a row. -/
theorem s5_v107 : StableHlo.after hostOps5 W (dr main_v107) = shapeCast S1x128 (val_main_v171 (F := Ideal) (W (dr main_arg10))) shapeCasts_S128_S1x128 := by
  after_results_simp
  rfl

/-- The layer's row of the running-variance table, as a row. -/
theorem s5_v108 : StableHlo.after hostOps5 W (dr main_v108) = shapeCast S1x128 (val_main_v176 (F := Ideal) (W (dr main_arg11))) shapeCasts_S128_S1x128 := by
  after_results_simp
  rfl

/-- The head's first bias as a row. -/
theorem s6_v110 : StableHlo.after hostOps6 W (dr main_v110) = shapeCast S1x64 (W (dr main_arg13)) shapeCasts_S64_S1x64 := by
  after_results_simp
  rfl

/-- The head's second bias as a row. -/
theorem s6_v111 : StableHlo.after hostOps6 W (dr main_v111) = shapeCast S1x1 (W (dr main_arg15)) shapeCasts_S1_S1x1 := by
  after_results_simp
  rfl

/-! ## The three aggregations, from what the stretch's inputs hold -/

/-- The first layer's aggregation: from the edges' ends, the edge weights as a column and the layer's linear map, the stretch writes the reference's scatter-add of the weighted gathered rows (a vector cast to a column is the vector broadcast along a new unit axis). -/
theorem s1_v41 (x0 : (⟨S100000x1024, .f32⟩ : BufTy).Contents (Elt Ideal)) (x1 : (⟨S2x1600000, .i32⟩ : BufTy).Contents (Elt Ideal)) (x2 : (⟨S1024x128, .f32⟩ : BufTy).Contents (Elt Ideal))
    (h1 : W (dr main_v1) = val_main_v1 (F := Ideal) x1) (h3 : W (dr main_v3) = val_main_v3 (F := Ideal) x1)
    (h28 : W (dr main_v28) = shapeCast S1600000x1 (val_main_v26 (F := Ideal) x1) shapeCasts_S1600000_S1600000x1)
    (h29 : W (dr main_v29) = val_main_v11 (F := Ideal) x0 x2) :
    StableHlo.after hostOps1 W (dr main_v41) = val_main_v39 (F := Ideal) x0 x1 x2 := by
  after_results_simp
  rw [h1, h3, h28, h29, Cert.ReferenceIdeal.Layers.col_cast_eq_bcast]
  rfl

/-- The second layer's aggregation (the reference computes the edge weights again for this layer, by the same operations). -/
theorem s3_v68 (x0 : (⟨S100000x1024, .f32⟩ : BufTy).Contents (Elt Ideal)) (x1 : (⟨S2x1600000, .i32⟩ : BufTy).Contents (Elt Ideal)) (x2 : (⟨S1024x128, .f32⟩ : BufTy).Contents (Elt Ideal)) (x3 : (⟨S128, .f32⟩ : BufTy).Contents (Elt Ideal)) (x4 : (⟨S128x128, .f32⟩ : BufTy).Contents (Elt Ideal)) (x8 x9 x10 x11 : (⟨S3x128, .f32⟩ : BufTy).Contents (Elt Ideal))
    (h1 : W (dr main_v1) = val_main_v1 (F := Ideal) x1) (h3 : W (dr main_v3) = val_main_v3 (F := Ideal) x1)
    (h28 : W (dr main_v28) = shapeCast S1600000x1 (val_main_v26 (F := Ideal) x1) shapeCasts_S1600000_S1600000x1)
    (h56 : W (dr main_v56) = val_main_v72 (F := Ideal) x0 x1 x2 x3 x4 x8 x9 x10 x11) :
    StableHlo.after hostOps3 W (dr main_v68) = val_main_v100 (F := Ideal) x0 x1 x2 x3 x4 x8 x9 x10 x11 := by
  after_results_simp
  rw [h1, h3, h28, h56, Cert.ReferenceIdeal.Layers.col_cast_eq_bcast]
  rfl

/-- The third layer's aggregation (the edge weights computed a third time by the reference, by the same operations). -/
theorem s5_v95 (x0 : (⟨S100000x1024, .f32⟩ : BufTy).Contents (Elt Ideal)) (x1 : (⟨S2x1600000, .i32⟩ : BufTy).Contents (Elt Ideal)) (x2 : (⟨S1024x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x8 x9 x10 x11 : (⟨S3x128, .f32⟩ : BufTy).Contents (Elt Ideal))
    (h1 : W (dr main_v1) = val_main_v1 (F := Ideal) x1) (h3 : W (dr main_v3) = val_main_v3 (F := Ideal) x1)
    (h28 : W (dr main_v28) = shapeCast S1600000x1 (val_main_v26 (F := Ideal) x1) shapeCasts_S1600000_S1600000x1)
    (h83 : W (dr main_v83) = val_main_v133 (F := Ideal) x0 x1 x2 x3 x4 x5 x6 x8 x9 x10 x11) :
    StableHlo.after hostOps5 W (dr main_v95) = val_main_v161 (F := Ideal) x0 x1 x2 x3 x4 x5 x6 x8 x9 x10 x11 := by
  after_results_simp
  rw [h1, h3, h28, h83, Cert.ReferenceIdeal.Layers.col_cast_eq_bcast]
  rfl

end Cert.KernelIdeal.Stretch

end
-- ==== Proof.PayBlocks.lean ====
/-
  Each kernel body's stored value, as one function of the blocks it loads, is one of the network's three functions
  (matrix product, layer combine, two-layer head) at the extended reals: a change of float format is the identity,
  a matrix unit's product into a zero accumulator is the plain sum of products, a unit-axis broadcast reads
  coordinate 0.
-/
import proofs.«132452_j56418690400931_1_alg».proof.Proof.Gen.KernelIdeal.Skeleton
import proofs.«132452_j56418690400931_1_alg».proof.Proof.Spec
import proofs.«132452_j56418690400931_1_alg».proof.Proof.LibLayoutCols
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx Cert.GcnSpec

/-- The variance floor the normalisation adds (the one binary word both programs carry). -/
abbrev εw : EReal := Ideal.ofBits .f32 0x3727C5AC#32
/-- The zero word the positive part compares with. -/
abbrev zw : EReal := Ideal.ofBits .f32 0x00000000#32

/-! ## A matrix unit's product into the zero accumulator, at an index written by coordinates -/

/-- The left operand's row coordinate at output index `j` is `j`'s row. -/
theorem matmul0_1000_1024_128_lhs0 (j : S1000x128.Idx) (q : dot_S1000x1024_S1024x128_S1000x128_1_0_0_1_n_n.contr.Idx) : (dot_S1000x1024_S1024x128_S1000x128_1_0_0_1_n_n.lhsIdx j q 0).val = (j 0).val := by
  unfold DotDims.lhsIdx
  rw [dif_neg (show ¬(0 : Fin S1000x1024.rank) ∈ dot_S1000x1024_S1024x128_S1000x128_1_0_0_1_n_n.lhsBatch by decide), dif_pos (show (0 : Fin S1000x1024.rank) ∈ dot_S1000x1024_S1024x128_S1000x128_1_0_0_1_n_n.lhsNonContracting by decide)]
  rfl
/-- The right operand's column coordinate at output index `j` is `j`'s column. -/
theorem matmul0_1000_1024_128_rhs1 (j : S1000x128.Idx) (q : dot_S1000x1024_S1024x128_S1000x128_1_0_0_1_n_n.contr.Idx) : (dot_S1000x1024_S1024x128_S1000x128_1_0_0_1_n_n.rhsIdx j q 1).val = (j 1).val := by
  unfold DotDims.rhsIdx
  rw [dif_neg (show ¬(1 : Fin S1024x128.rank) ∈ dot_S1000x1024_S1024x128_S1000x128_1_0_0_1_n_n.rhsBatch by decide), dif_pos (show (1 : Fin S1024x128.rank) ∈ dot_S1000x1024_S1024x128_S1000x128_1_0_0_1_n_n.rhsNonContracting by decide)]
  rfl

/-- The matrix unit's product into the zero accumulator, for a `[1000, 1024]` by `[1024, 128]` product, read at `(p, c)`:
    the sum over the contracted coordinate `q` of the left operand at `(p, q)` times the right operand at `(q, c)`. -/
theorem matmul0_1000_1024_128 {φ₁ φ₂ : FTy} (a : FVec Ideal S1000x1024 φ₁) (b : FVec Ideal S1024x128 φ₂) (p : Fin 1000) (c : Fin 128) :
    matmul (F := Ideal) dot_S1000x1024_S1024x128_S1000x128_1_0_0_1_n_n none a b (constant (F := Ideal) S1000x128 .f32 0x00000000#32) (ix2 p c)
      = ∑ q : Fin 1024, a (ix2 p q) * b (ix2 q c) := by
  refine (Ideal.matmul_constant_zero_apply dot_S1000x1024_S1024x128_S1000x128_1_0_0_1_n_n none a b (ix2 p c)).trans ?_
  rw [← Equiv.sum_comp (contrEquiv1 dot_S1000x1024_S1024x128_S1000x128_1_0_0_1_n_n 1024 rfl rfl).symm]
  refine Finset.sum_congr rfl fun k _ => ?_
  have hk := contrEquiv1_symm_val dot_S1000x1024_S1024x128_S1000x128_1_0_0_1_n_n 1024 rfl rfl k
  have el : dot_S1000x1024_S1024x128_S1000x128_1_0_0_1_n_n.lhsIdx (ix2 p c) ((contrEquiv1 dot_S1000x1024_S1024x128_S1000x128_1_0_0_1_n_n 1024 rfl rfl).symm k) = ix2 p k := funext fun x => Fin.ext (by
    match x with
    | ⟨0, _⟩ => exact matmul0_1000_1024_128_lhs0 _ _
    | ⟨1, _⟩ => exact (dot_S1000x1024_S1024x128_S1000x128_1_0_0_1_n_n.lhsIdx_val_of_single rfl _ _).trans hk)
  have er : dot_S1000x1024_S1024x128_S1000x128_1_0_0_1_n_n.rhsIdx (ix2 p c) ((contrEquiv1 dot_S1000x1024_S1024x128_S1000x128_1_0_0_1_n_n 1024 rfl rfl).symm k) = ix2 k c := funext fun x => Fin.ext (by
    match x with
    | ⟨0, _⟩ => exact (dot_S1000x1024_S1024x128_S1000x128_1_0_0_1_n_n.rhsIdx_val_of_single rfl _ _).trans hk
    | ⟨1, _⟩ => exact matmul0_1000_1024_128_rhs1 _ _)
  rw [el, er]

/-- The left operand's row coordinate at output index `j` is `j`'s row. -/
theorem matmul0_1000_128_128_lhs0 (j : S1000x128.Idx) (q : dot_S1000x128_S128x128_S1000x128_1_0_0_1_n_n.contr.Idx) : (dot_S1000x128_S128x128_S1000x128_1_0_0_1_n_n.lhsIdx j q 0).val = (j 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- The right operand's column coordinate at output index `j` is `j`'s column. -/
theorem matmul0_1000_128_128_rhs1 (j : S1000x128.Idx) (q : dot_S1000x128_S128x128_S1000x128_1_0_0_1_n_n.contr.Idx) : (dot_S1000x128_S128x128_S1000x128_1_0_0_1_n_n.rhsIdx j q 1).val = (j 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The matrix unit's product into the zero accumulator, for a `[1000, 128]` by `[128, 128]` product, read at `(p, c)`:
    the sum over the contracted coordinate `q` of the left operand at `(p, q)` times the right operand at `(q, c)`. -/
theorem matmul0_1000_128_128 {φ₁ φ₂ : FTy} (a : FVec Ideal S1000x128 φ₁) (b : FVec Ideal S128x128 φ₂) (p : Fin 1000) (c : Fin 128) :
    matmul (F := Ideal) dot_S1000x128_S128x128_S1000x128_1_0_0_1_n_n none a b (constant (F := Ideal) S1000x128 .f32 0x00000000#32) (ix2 p c)
      = ∑ q : Fin 128, a (ix2 p q) * b (ix2 q c) := by
  refine (Ideal.matmul_constant_zero_apply dot_S1000x128_S128x128_S1000x128_1_0_0_1_n_n none a b (ix2 p c)).trans ?_
  rw [← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 p c) ((contrEquiv1 dot_S1000x128_S128x128_S1000x128_1_0_0_1_n_n 128 rfl rfl).symm k) = ix2 p k := funext fun x => Fin.ext (by
    match x with
    | ⟨0, _⟩ => exact matmul0_1000_128_128_lhs0 _ _
    | ⟨1, _⟩ => exact (dot_S1000x128_S128x128_S1000x128_1_0_0_1_n_n.lhsIdx_val_of_single rfl _ _).trans hk)
  have er : dot_S1000x128_S128x128_S1000x128_1_0_0_1_n_n.rhsIdx (ix2 p c) ((contrEquiv1 dot_S1000x128_S128x128_S1000x128_1_0_0_1_n_n 128 rfl rfl).symm k) = ix2 k c := funext fun x => Fin.ext (by
    match x with
    | ⟨0, _⟩ => exact (dot_S1000x128_S128x128_S1000x128_1_0_0_1_n_n.rhsIdx_val_of_single rfl _ _).trans hk
    | ⟨1, _⟩ => exact matmul0_1000_128_128_rhs1 _ _)
  rw [el, er]

/-- The left operand's row coordinate at output index `j` is `j`'s row. -/
theorem matmul0_1000_128_64_lhs0 (j : S1000x64.Idx) (q : dot_S1000x128_S128x64_S1000x64_1_0_0_1_n_n.contr.Idx) : (dot_S1000x128_S128x64_S1000x64_1_0_0_1_n_n.lhsIdx j q 0).val = (j 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
/-- The right operand's column coordinate at output index `j` is `j`'s column. -/
theorem matmul0_1000_128_64_rhs1 (j : S1000x64.Idx) (q : dot_S1000x128_S128x64_S1000x64_1_0_0_1_n_n.contr.Idx) : (dot_S1000x128_S128x64_S1000x64_1_0_0_1_n_n.rhsIdx j q 1).val = (j 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The matrix unit's product into the zero accumulator, for a `[1000, 128]` by `[128, 64]` product, read at `(p, c)`:
    the sum over the contracted coordinate `q` of the left operand at `(p, q)` times the right operand at `(q, c)`. -/
theorem matmul0_1000_128_64 {φ₁ φ₂ : FTy} (a : FVec Ideal S1000x128 φ₁) (b : FVec Ideal S128x64 φ₂) (p : Fin 1000) (c : Fin 64) :
    matmul (F := Ideal) dot_S1000x128_S128x64_S1000x64_1_0_0_1_n_n none a b (constant (F := Ideal) S1000x64 .f32 0x00000000#32) (ix2 p c)
      = ∑ q : Fin 128, a (ix2 p q) * b (ix2 q c) := by
  refine (Ideal.matmul_constant_zero_apply dot_S1000x128_S128x64_S1000x64_1_0_0_1_n_n none a b (ix2 p c)).trans ?_
  rw [← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p c) ((contrEquiv1 dot_S1000x128_S128x64_S1000x64_1_0_0_1_n_n 128 rfl rfl).symm k) = ix2 p k := funext fun x => Fin.ext (by
    match x with
    | ⟨0, _⟩ => exact matmul0_1000_128_64_lhs0 _ _
    | ⟨1, _⟩ => exact (dot_S1000x128_S128x64_S1000x64_1_0_0_1_n_n.lhsIdx_val_of_single rfl _ _).trans hk)
  have er : dot_S1000x128_S128x64_S1000x64_1_0_0_1_n_n.rhsIdx (ix2 p c) ((contrEquiv1 dot_S1000x128_S128x64_S1000x64_1_0_0_1_n_n 128 rfl rfl).symm k) = ix2 k c := funext fun x => Fin.ext (by
    match x with
    | ⟨0, _⟩ => exact (dot_S1000x128_S128x64_S1000x64_1_0_0_1_n_n.rhsIdx_val_of_single rfl _ _).trans hk
    | ⟨1, _⟩ => exact matmul0_1000_128_64_rhs1 _ _)
  rw [el, er]

/-- The left operand's row coordinate at output index `j` is `j`'s row. -/
theorem matmul0_1000_64_1_lhs0 (j : S1000x1.Idx) (q : dot_S1000x64_S64x1_S1000x1_1_0_0_1_n_n.contr.Idx) : (dot_S1000x64_S64x1_S1000x1_1_0_0_1_n_n.lhsIdx j q 0).val = (j 0).val := by
  unfold DotDims.lhsIdx
  rw [dif_neg (show ¬(0 : Fin S1000x64.rank) ∈ dot_S1000x64_S64x1_S1000x1_1_0_0_1_n_n.lhsBatch by decide), dif_pos (show (0 : Fin S1000x64.rank) ∈ dot_S1000x64_S64x1_S1000x1_1_0_0_1_n_n.lhsNonContracting by decide)]
  rfl
/-- The right operand's column coordinate at output index `j` is `j`'s column. -/
theorem matmul0_1000_64_1_rhs1 (j : S1000x1.Idx) (q : dot_S1000x64_S64x1_S1000x1_1_0_0_1_n_n.contr.Idx) : (dot_S1000x64_S64x1_S1000x1_1_0_0_1_n_n.rhsIdx j q 1).val = (j 1).val := by
  unfold DotDims.rhsIdx
  rw [dif_neg (show ¬(1 : Fin S64x1.rank) ∈ dot_S1000x64_S64x1_S1000x1_1_0_0_1_n_n.rhsBatch by decide), dif_pos (show (1 : Fin S64x1.rank) ∈ dot_S1000x64_S64x1_S1000x1_1_0_0_1_n_n.rhsNonContracting by decide)]
  rfl

/-- The matrix unit's product into the zero accumulator, for a `[1000, 64]` by `[64, 1]` product, read at `(p, c)`:
    the sum over the contracted coordinate `q` of the left operand at `(p, q)` times the right operand at `(q, c)`. -/
theorem matmul0_1000_64_1 {φ₁ φ₂ : FTy} (a : FVec Ideal S1000x64 φ₁) (b : FVec Ideal S64x1 φ₂) (p : Fin 1000) (c : Fin 1) :
    matmul (F := Ideal) dot_S1000x64_S64x1_S1000x1_1_0_0_1_n_n none a b (constant (F := Ideal) S1000x1 .f32 0x00000000#32) (ix2 p c)
      = ∑ q : Fin 64, a (ix2 p q) * b (ix2 q c) := by
  refine (Ideal.matmul_constant_zero_apply dot_S1000x64_S64x1_S1000x1_1_0_0_1_n_n none a b (ix2 p c)).trans ?_
  rw [← Equiv.sum_comp (contrEquiv1 dot_S1000x64_S64x1_S1000x1_1_0_0_1_n_n 64 rfl rfl).symm]
  refine Finset.sum_congr rfl fun k _ => ?_
  have hk := contrEquiv1_symm_val dot_S1000x64_S64x1_S1000x1_1_0_0_1_n_n 64 rfl rfl k
  have el : dot_S1000x64_S64x1_S1000x1_1_0_0_1_n_n.lhsIdx (ix2 p c) ((contrEquiv1 dot_S1000x64_S64x1_S1000x1_1_0_0_1_n_n 64 rfl rfl).symm k) = ix2 p k := funext fun x => Fin.ext (by
    match x with
    | ⟨0, _⟩ => exact matmul0_1000_64_1_lhs0 _ _
    | ⟨1, _⟩ => exact (dot_S1000x64_S64x1_S1000x1_1_0_0_1_n_n.lhsIdx_val_of_single rfl _ _).trans hk)
  have er : dot_S1000x64_S64x1_S1000x1_1_0_0_1_n_n.rhsIdx (ix2 p c) ((contrEquiv1 dot_S1000x64_S64x1_S1000x1_1_0_0_1_n_n 64 rfl rfl).symm k) = ix2 k c := funext fun x => Fin.ext (by
    match x with
    | ⟨0, _⟩ => exact (dot_S1000x64_S64x1_S1000x1_1_0_0_1_n_n.rhsIdx_val_of_single rfl _ _).trans hk
    | ⟨1, _⟩ => exact matmul0_1000_64_1_rhs1 _ _)
  rw [el, er]

/-! ## The seven stored values -/

/-- First layer's linear map on a block of 1000 rows: the matrix product. -/
theorem pay0 (x : Vec Ideal S1000x1024 .f32) (w : Vec Ideal S1024x128 .f32) : k0_pay1 (F := Ideal) x w = mm x w := by
  funext j
  obtain ⟨p, c, rfl⟩ : ∃ (p : Fin 1000) (c : Fin 128), j = ix2 p c := ⟨j 0, j 1, eq_ix2 j⟩
  unfold k0_pay1
  refine (matmul0_1000_1024_128 _ _ p c).trans ?_
  unfold mm
  refine Finset.sum_congr rfl fun q _ => ?_
  rw [truncf_apply, truncf_apply]

/-- Second layer's linear map on a block of rows. -/
theorem pay2 (x : Vec Ideal S1000x128 .f32) (w : Vec Ideal S128x128 .f32) : k2_pay1 (F := Ideal) x w = mm x w := by
  funext j
  obtain ⟨p, c, rfl⟩ : ∃ (p : Fin 1000) (c : Fin 128), j = ix2 p c := ⟨j 0, j 1, eq_ix2 j⟩
  unfold k2_pay1
  refine (matmul0_1000_128_128 _ _ p c).trans ?_
  unfold mm
  refine Finset.sum_congr rfl fun q _ => ?_
  rw [truncf_apply, truncf_apply, shapeCast_self]

/-- Third layer's linear map on a block of rows. -/
theorem pay4 (x : Vec Ideal S1000x128 .f32) (w : Vec Ideal S128x128 .f32) : k4_pay1 (F := Ideal) x w = mm x w := by
  funext j
  obtain ⟨p, c, rfl⟩ : ∃ (p : Fin 1000) (c : Fin 128), j = ix2 p c := ⟨j 0, j 1, eq_ix2 j⟩
  unfold k4_pay1
  refine (matmul0_1000_128_128 _ _ p c).trans ?_
  unfold mm
  refine Finset.sum_congr rfl fun q _ => ?_
  rw [truncf_apply, truncf_apply, shapeCast_self]

/-- First layer's combine on a block of rows (the body loads bias, running mean, running variance, scale, shift in
    that order). -/
theorem pay1 (hl ag : Vec Ideal S1000x128 .f32) (sn : Vec Ideal S1000x1 .f32) (bi rm rv ga be : Vec Ideal S1x128 .f32) :
    k1_pay1 (F := Ideal) hl ag sn bi rm rv ga be = comb εw zw hl ag sn bi ga be rm rv := by
  funext j
  obtain ⟨p, c, rfl⟩ : ∃ (p : Fin 1000) (c : Fin 128), j = ix2 p c := ⟨j 0, j 1, eq_ix2 j⟩
  have hcol : ∀ v : FVec Ideal S1000x1 .f32, broadcastTo S1000x128 v broadcasts_S1000x1_S1000x128 (ix2 p c) = v (ix2 p (0 : Fin 1)) :=
    fun v => Cert.LibLayoutCols.broadcastTo_a1_ab_apply v _ p c
  have hrow : ∀ v : FVec Ideal S1x128 .f32, broadcastTo S1000x128 v broadcasts_S1x128_S1000x128 (ix2 p c) = v (ix2 (0 : Fin 1) c) :=
    fun v => broadcastTo_1b_ab_apply v _ p c
  unfold k1_pay1 comb
  simp only [shapeCast_self, maximumf_apply, addf_apply, mulf_apply, subf_apply, broadcast_apply, hcol, hrow]
  rfl

/-- Second layer's combine. -/
theorem pay3 (hl ag : Vec Ideal S1000x128 .f32) (sn : Vec Ideal S1000x1 .f32) (bi rm rv ga be : Vec Ideal S1x128 .f32) :
    k3_pay1 (F := Ideal) hl ag sn bi rm rv ga be = comb εw zw hl ag sn bi ga be rm rv := by
  exact pay1 hl ag sn bi rm rv ga be

/-- Third layer's combine. -/
theorem pay5 (hl ag : Vec Ideal S1000x128 .f32) (sn : Vec Ideal S1000x1 .f32) (bi rm rv ga be : Vec Ideal S1x128 .f32) :
    k5_pay1 (F := Ideal) hl ag sn bi rm rv ga be = comb εw zw hl ag sn bi ga be rm rv := by
  exact pay1 hl ag sn bi rm rv ga be

/-- The head on a block of rows. -/
theorem pay6 (x : Vec Ideal S1000x128 .f32) (w1 : Vec Ideal S128x64 .f32) (b1 : Vec Ideal S1x64 .f32)
    (w2 : Vec Ideal S64x1 .f32) (b2 : Vec Ideal S1x1 .f32) : k6_pay1 (F := Ideal) x w1 b1 w2 b2 = cls zw x w1 b1 w2 b2 := by
  funext j
  obtain ⟨p, u, rfl⟩ : ∃ (p : Fin 1000) (u : Fin 1), j = ix2 p u := ⟨j 0, j 1, eq_ix2 j⟩
  have hb2 : ∀ v : FVec Ideal S1x1 .f32, broadcastTo S1000x1 v broadcasts_S1x1_S1000x1 (ix2 p u) = v (ix2 (0 : Fin 1) u) :=
    fun v => broadcastTo_1b_ab_apply v _ p u
  have hb1 : ∀ (v : FVec Ideal S1x64 .f32) (q : Fin 64),
      broadcastTo S1000x64 v broadcasts_S1x64_S1000x64 (ix2 p q) = v (ix2 (0 : Fin 1) q) :=
    fun v q => broadcastTo_1b_ab_apply v _ p q
  unfold k6_pay1 cls
  simp only [shapeCast_self, addf_apply, matmul0_1000_64_1, hb2]
  refine congrArg₂ (· + ·) ?_ rfl
  unfold mm
  refine Finset.sum_congr rfl fun q _ => ?_
  simp only [truncf_apply, maximumf_apply, addf_apply, matmul0_1000_128_64, hb1, broadcast_apply]
  rfl

end Cert.KernelIdeal.Blocks

end
-- ==== Proof.Region0.lean ====
/-
  The first layer's linear map as a region: a hundred grid points, point `t` multiplying rows `1000 t … 1000 t + 999` of the
  input by the whole weight matrix. Each point writes back that block of rows of the matrix product, and the blocks
  tile the result, so after the region the result array is the matrix product of the two arrays as the region found them.
-/
import proofs.«132452_j56418690400931_1_alg».proof.Proof.Gen.KernelIdeal.Frame
import proofs.«132452_j56418690400931_1_alg».proof.Proof.Spec
import proofs.«132452_j56418690400931_1_alg».proof.Proof.PayBlocks
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Blocks Cert.GcnSpec
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input's and the result's row block is the point, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the arrays as the region finds them. -/
theorem flushed (c : Dev nD) (t : Fin cfg0.N) :
    (dat0 V c).flushed 2 t = ((cfg0.win 2).blk t).view.read (Elt Ideal)
      (mm (a := 100000) (k := 1024) (b := 128) (V c main_arg0) (V c main_arg2)) := by
  show (cfg0.win 2).cut (grid0.coords t) ((dat0 V c).after 2 t) = _
  rw [after0_2]
  unfold out0_2
  rw [View.canon_unit_zero hz]
  simp only [View.ld_unit_zero (S := S1000x1024) hz, View.ld_unit_zero (S := S1024x128) hz]
  rw [pay0]
  obtain ⟨e00, e01, e10, e11, e20, e21⟩ := idx_facts t
  funext j
  show mm (iblk0 V c 0 t) (iblk0 V c 1 t) j
    = mm (a := 100000) (k := 1024) (b := 128) (V c main_arg0) (V c main_arg2) (((cfg0.win 2).blk t).view.emb j)
  refine mm_congr (V c main_arg0) (iblk0 V c 0 t) (V c main_arg2) (iblk0 V c 1 t) _ j (fun q => ?_) (fun q => ?_)
  · show V c main_arg0 (((cfg0.win 0).blk t).view.emb (ix2 (j 0) q)) = V c main_arg0 (ix2 ((((cfg0.win 2).blk t).view.emb j) 0) q)
    refine congrArg _ (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 1024 + 1 * q.val = q.val; omega
  · show V c main_arg2 (((cfg0.win 1).blk t).view.emb (ix2 q (j 1))) = V c main_arg2 (ix2 q ((((cfg0.win 2).blk t).view.emb j) 1))
    refine congrArg _ (funext fun a => Fin.ext ?_)
    match a with
    | ⟨0, _⟩ => show win0_1.index t (0 : Fin 2) * 1024 + 1 * q.val = q.val; omega
    | ⟨1, _⟩ => show win0_1.index t (1 : Fin 2) * 128 + 1 * (j 1).val = win0_2.index t (1 : Fin 2) * 128 + 1 * (j 1).val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v29).slice (win0_2.rect t)).set ↔ _
  rw [View.set_slice_whole, Rect.mem_set_unit]
  exact Iff.rfl

/-- Every row of the array lies in the block of the point `row / 1000`: the hundred blocks of a thousand rows tile it. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 1000 < cfg0.N := lt_of_lt_of_eq (by omega : (i 0).val / 1000 < 100) N_0.symm
  obtain ⟨t, htv⟩ : ∃ t : Fin cfg0.N, t.val = (i 0).val / 1000 := ⟨⟨(i 0).val / 1000, ht⟩, rfl⟩
  obtain ⟨e00, e01, e10, e11, e20, e21⟩ := idx_facts t
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- After the region the result array is the matrix product of the input and weight arrays as the region found them. -/
theorem final (c : Dev nD) :
    (dat0 V c).arrAt 2 cfg0.N = mm (a := 100000) (k := 1024) (b := 128) (V c main_arg0) (V c main_arg2) :=
  (dat0 V c).arrAt_eq_of_cover 2 (mm (a := 100000) (k := 1024) (b := 128) (V c main_arg0) (V c main_arg2))
    (fun t _ => flushed V c t) cover

end Cert.KernelIdeal.Region0

end
-- ==== Proof.Region1.lean ====
/-
  The first layer's combine as a region: a hundred grid points, point `t` taking rows `1000 t … 1000 t + 999` of the
  linear map's result, of the aggregated messages and of the self-loop column, and the five parameter rows whole. Each
  point writes back that block of rows of the layer combine, and the blocks tile the result.
-/
import proofs.«132452_j56418690400931_1_alg».proof.Proof.Gen.KernelIdeal.Frame
import proofs.«132452_j56418690400931_1_alg».proof.Proof.Spec
import proofs.«132452_j56418690400931_1_alg».proof.Proof.PayBlocks
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Blocks Cert.GcnSpec
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row-blocked inputs and the result sit at row block `t`,
    every other block index is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

set_option maxHeartbeats 3200000 in
/-- What point `t` writes back is block `t` of the layer combine of the arrays as the region finds them. -/
theorem flushed (c : Dev nD) (t : Fin cfg1.N) :
    (dat1 V c).flushed 8 t = ((cfg1.win 8).blk t).view.read (Elt Ideal)
      (comb (a := 100000) (b := 128) εw zw (V c main_v29) (V c main_v41) (V c main_v12) (V c main_v50) (V c main_v51) (V c main_v52) (V c main_v53) (V c main_v54)) := by
  show (cfg1.win 8).cut (grid1.coords t) ((dat1 V c).after 8 t) = _
  rw [after1_8]
  unfold out1_8
  rw [View.canon_unit_zero hz]
  simp only [View.ld_unit_zero (S := S1000x128) hz, View.ld_unit_zero (S := S1000x1) hz, View.ld_unit_zero (S := S1x128) hz]
  rw [pay1]
  obtain ⟨e00, e01, e10, e11, e20, e21, e30, e31, e40, e41, e50, e51, e60, e61, e70, e71, e80, e81⟩ := idx_facts t
  funext j
  show comb εw zw (iblk1 V c 0 t) (iblk1 V c 1 t) (iblk1 V c 2 t) (iblk1 V c 3 t) (iblk1 V c 4 t) (iblk1 V c 5 t) (iblk1 V c 6 t) (iblk1 V c 7 t) j
    = comb (a := 100000) (b := 128) εw zw (V c main_v29) (V c main_v41) (V c main_v12) (V c main_v50) (V c main_v51) (V c main_v52) (V c main_v53) (V c main_v54) (((cfg1.win 8).blk t).view.emb j)
  refine comb_congr εw zw (V c main_v29) (V c main_v41) (V c main_v12) (V c main_v50) (V c main_v51) (V c main_v52) (V c main_v53) (V c main_v54)
    (iblk1 V c 0 t) (iblk1 V c 1 t) (iblk1 V c 2 t) (iblk1 V c 3 t) (iblk1 V c 4 t) (iblk1 V c 5 t) (iblk1 V c 6 t) (iblk1 V c 7 t) (((cfg1.win 8).blk t).view.emb j) j
    ?_ ?_ ?_ ?_ ?_ ?_ ?_ ?_
  · show V c main_v29 (((cfg1.win 0).blk t).view.emb j) = V c main_v29 (((cfg1.win 8).blk t).view.emb j)
    refine congrArg _ (funext fun a => Fin.ext ?_)
    match a with
    | ⟨0, _⟩ => show win1_0.index t (0 : Fin 2) * 1000 + 1 * (j 0).val = win1_8.index t (0 : Fin 2) * 1000 + 1 * (j 0).val; omega
    | ⟨1, _⟩ => show win1_0.index t (1 : Fin 2) * 128 + 1 * (j 1).val = win1_8.index t (1 : Fin 2) * 128 + 1 * (j 1).val; omega
  · show V c main_v41 (((cfg1.win 1).blk t).view.emb j) = V c main_v41 (((cfg1.win 8).blk t).view.emb j)
    refine congrArg _ (funext fun a => Fin.ext ?_)
    match a with
    | ⟨0, _⟩ => show win1_1.index t (0 : Fin 2) * 1000 + 1 * (j 0).val = win1_8.index t (0 : Fin 2) * 1000 + 1 * (j 0).val; omega
    | ⟨1, _⟩ => show win1_1.index t (1 : Fin 2) * 128 + 1 * (j 1).val = win1_8.index t (1 : Fin 2) * 128 + 1 * (j 1).val; omega
  · show V c main_v12 (((cfg1.win 2).blk t).view.emb (ix2 (j 0) (0 : Fin 1))) = V c main_v12 (ix2 ((((cfg1.win 8).blk t).view.emb j) 0) (0 : Fin 1))
    refine congrArg _ (funext fun a => Fin.ext ?_)
    match a with
    | ⟨0, _⟩ => show win1_2.index t (0 : Fin 2) * 1000 + 1 * (j 0).val = win1_8.index t (0 : Fin 2) * 1000 + 1 * (j 0).val; omega
    | ⟨1, _⟩ => show win1_2.index t (1 : Fin 2) * 1 + 1 * 0 = 0; omega
  · show V c main_v50 (((cfg1.win 3).blk t).view.emb (ix2 (0 : Fin 1) (j 1))) = V c main_v50 (ix2 (0 : Fin 1) ((((cfg1.win 8).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_8.index t (1 : Fin 2) * 128 + 1 * (j 1).val; omega
  · show V c main_v51 (((cfg1.win 4).blk t).view.emb (ix2 (0 : Fin 1) (j 1))) = V c main_v51 (ix2 (0 : Fin 1) ((((cfg1.win 8).blk t).view.emb j) 1))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_8.index t (1 : Fin 2) * 128 + 1 * (j 1).val; omega
  · show V c main_v52 (((cfg1.win 5).blk t).view.emb (ix2 (0 : Fin 1) (j 1))) = V c main_v52 (ix2 (0 : Fin 1) ((((cfg1.win 8).blk t).view.emb j) 1))
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * (j 1).val = win1_8.index t (1 : Fin 2) * 128 + 1 * (j 1).val; omega
  · show V c main_v53 (((cfg1.win 6).blk t).view.emb (ix2 (0 : Fin 1) (j 1))) = V c main_v53 (ix2 (0 : Fin 1) ((((cfg1.win 8).blk t).view.emb j) 1))
    refine congrArg _ (funext fun a => Fin.ext ?_)
    match a with
    | ⟨0, _⟩ => show win1_6.index t (0 : Fin 2) * 1 + 1 * 0 = 0; omega
    | ⟨1, _⟩ => show win1_6.index t (1 : Fin 2) * 128 + 1 * (j 1).val = win1_8.index t (1 : Fin 2) * 128 + 1 * (j 1).val; omega
  · show V c main_v54 (((cfg1.win 7).blk t).view.emb (ix2 (0 : Fin 1) (j 1))) = V c main_v54 (ix2 (0 : Fin 1) ((((cfg1.win 8).blk t).view.emb j) 1))
    refine congrArg _ (funext fun a => Fin.ext ?_)
    match a with
    | ⟨0, _⟩ => show win1_7.index t (0 : Fin 2) * 1 + 1 * 0 = 0; omega
    | ⟨1, _⟩ => show win1_7.index t (1 : Fin 2) * 128 + 1 * (j 1).val = win1_8.index t (1 : Fin 2) * 128 + 1 * (j 1).val; omega

/-- An index of the array is in point `t`'s block iff each coordinate is in the block's range on its axis. -/
theorem mem_blk (t : Fin cfg1.N) (i : S100000x128.Idx) :
    i ∈ ((cfg1.win 8).blk t).view.set ↔ ∀ a : Fin 2, win1_8.index t a * S1000x128.size a ≤ (i a).val ∧ (i a).val < win1_8.index t a * S1000x128.size a + S1000x128.size a := by
  show i ∈ ((View.whole main_v55).slice (win1_8.rect t)).set ↔ _
  rw [View.set_slice_whole, Rect.mem_set_unit]
  exact Iff.rfl

/-- Every row of the array lies in the block of the point `row / 1000`: the hundred blocks of a thousand rows tile it. -/
theorem cover (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have ht : (i 0).val / 1000 < cfg1.N := lt_of_lt_of_eq (by omega : (i 0).val / 1000 < 100) N_1.symm
  obtain ⟨t, htv⟩ : ∃ t : Fin cfg1.N, t.val = (i 0).val / 1000 := ⟨⟨(i 0).val / 1000, ht⟩, rfl⟩
  obtain ⟨e00, e01, e10, e11, e20, e21, e30, e31, e40, e41, e50, e51, e60, e61, e70, e71, e80, e81⟩ := idx_facts t
  refine ⟨t, flush1_8 t, ?_⟩
  rw [mem_blk]
  intro a
  match a with
  | ⟨0, _⟩ => show win1_8.index t (0 : Fin 2) * 1000 ≤ (i 0).val ∧ (i 0).val < win1_8.index t (0 : Fin 2) * 1000 + 1000; omega
  | ⟨1, _⟩ => show win1_8.index t (1 : Fin 2) * 128 ≤ (i 1).val ∧ (i 1).val < win1_8.index t (1 : Fin 2) * 128 + 128; omega

/-- After the region the result array is the layer combine of the eight arrays as the region found them. -/
theorem final (c : Dev nD) :
    (dat1 V c).arrAt 8 cfg1.N = comb (a := 100000) (b := 128) εw zw (V c main_v29) (V c main_v41) (V c main_v12) (V c main_v50) (V c main_v51) (V c main_v52) (V c main_v53) (V c main_v54) :=
  (dat1 V c).arrAt_eq_of_cover 8 (comb (a := 100000) (b := 128) εw zw (V c main_v29) (V c main_v41) (V c main_v12) (V c main_v50) (V c main_v51) (V c main_v52) (V c main_v53) (V c main_v54))
    (fun t _ => flushed V c t) cover

end Cert.KernelIdeal.Region1

end
-- ==== Proof.Region2.lean ====
/-
  The second layer's linear map as a region: a hundred grid points, point `t` multiplying rows `1000 t … 1000 t + 999` of the
  input by the whole weight matrix. Each point writes back that block of rows of the matrix product, and the blocks
  tile the result, so after the region the result array is the matrix product of the two arrays as the region found them.
-/
import proofs.«132452_j56418690400931_1_alg».proof.Proof.Gen.KernelIdeal.Frame
import proofs.«132452_j56418690400931_1_alg».proof.Proof.Spec
import proofs.«132452_j56418690400931_1_alg».proof.Proof.PayBlocks
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.Blocks Cert.GcnSpec
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input's and the result's row block is the point, every other
    block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the matrix product of the arrays as the region finds them. -/
theorem flushed (c : Dev nD) (t : Fin cfg2.N) :
    (dat2 V c).flushed 2 t = ((cfg2.win 2).blk t).view.read (Elt Ideal)
      (mm (a := 100000) (k := 128) (b := 128) (V c main_v55) (V c main_arg4)) := by
  show (cfg2.win 2).cut (grid2.coords t) ((dat2 V c).after 2 t) = _
  rw [after2_2]
  unfold out2_2
  rw [View.canon_unit_zero hz]
  simp only [View.ld_unit_zero (S := S1000x128) hz, View.ld_unit_zero (S := S128x128) hz]
  rw [pay2]
  obtain ⟨e00, e01, e10, e11, e20, e21⟩ := idx_facts t
  funext j
  show mm (iblk2 V c 0 t) (iblk2 V c 1 t) j
    = mm (a := 100000) (k := 128) (b := 128) (V c main_v55) (V c main_arg4) (((cfg2.win 2).blk t).view.emb j)
  refine mm_congr (V c main_v55) (iblk2 V c 0 t) (V c main_arg4) (iblk2 V c 1 t) _ j (fun q => ?_) (fun q => ?_)
  · show V c main_v55 (((cfg2.win 0).blk t).view.emb (ix2 (j 0) q)) = V c main_v55 (ix2 ((((cfg2.win 2).blk t).view.emb j) 0) q)
    refine congrArg _ (funext fun a => Fin.ext ?_)
    match a with
    | ⟨0, _⟩ => show win2_0.index t (0 : Fin 2) * 1000 + 1 * (j 0).val = win2_2.index t (0 : Fin 2) * 1000 + 1 * (j 0).val; omega
    | ⟨1, _⟩ => show win2_0.index t (1 : Fin 2) * 128 + 1 * q.val = q.val; omega
  · show V c main_arg4 (((cfg2.win 1).blk t).view.emb (ix2 q (j 1))) = V c main_arg4 (ix2 q ((((cfg2.win 2).blk t).view.emb j) 1))
    refine congrArg _ (funext fun a => Fin.ext ?_)
    match a with
    | ⟨0, _⟩ => show win2_1.index t (0 : Fin 2) * 128 + 1 * q.val = q.val; omega
    | ⟨1, _⟩ => show win2_1.index t (1 : Fin 2) * 128 + 1 * (j 1).val = win2_2.index t (1 : Fin 2) * 128 + 1 * (j 1).val; omega

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S1000x128.size a ≤ (i a).val ∧ (i a).val < win2_2.index t a * S1000x128.size a + S1000x128.size a := by
  show i ∈ ((View.whole main_v56).slice (win2_2.rect t)).set ↔ _
  rw [View.set_slice_whole, Rect.mem_set_unit]
  exact Iff.rfl

/-- Every row of the array lies in the block of the point `row / 1000`: the hundred blocks of a thousand rows tile it. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 1000 < cfg2.N := lt_of_lt_of_eq (by omega : (i 0).val / 1000 < 100) N_2.symm
  obtain ⟨t, htv⟩ : ∃ t : Fin cfg2.N, t.val = (i 0).val / 1000 := ⟨⟨(i 0).val / 1000, ht⟩, rfl⟩
  obtain ⟨e00, e01, e10, e11, e20, e21⟩ := idx_facts t
  refine ⟨t, flush2_2 t, ?_⟩
  rw [mem_blk]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 128 ≤ (i 1).val ∧ (i 1).val < win2_2.index t (1 : Fin 2) * 128 + 128; omega

/-- After the region the result array is the matrix product of the input and weight arrays as the region found them. -/
theorem final (c : Dev nD) :
    (dat2 V c).arrAt 2 cfg2.N = mm (a := 100000) (k := 128) (b := 128) (V c main_v55) (V c main_arg4) :=
  (dat2 V c).arrAt_eq_of_cover 2 (mm (a := 100000) (k := 128) (b := 128) (V c main_v55) (V c main_arg4))
    (fun t _ => flushed V c t) cover

end Cert.KernelIdeal.Region2

end
-- ==== Proof.Region3.lean ====
/-
  The second layer's combine as a region: a hundred grid points, point `t` taking rows `1000 t … 1000 t + 999` of the
  linear map's result, of the aggregated messages and of the self-loop column, and the five parameter rows whole. Each
  point writes back that block of rows of the layer combine, and the blocks tile the result.
-/
import proofs.«132452_j56418690400931_1_alg».proof.Proof.Gen.KernelIdeal.Frame
import proofs.«132452_j56418690400931_1_alg».proof.Proof.Spec
import proofs.«132452_j56418690400931_1_alg».proof.Proof.PayBlocks
import Idealize.ShloMosaic.Lib.Pipeline.Value
import Idealize.ShloMosaic.Lib.ValueIdx

set_option maxRecDepth 16384

noncomputable section

namespace Cert.KernelIdeal.Region3

open Cert.KernelIdeal Cert.KernelIdeal.Gen Cert.KernelIdeal.Blocks Cert.GcnSpec
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row-blocked inputs and the result sit at row block `t`,
    every other block index is zero. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

set_option maxHeartbeats 3200000 in
/-- What point `t` writes back is block `t` of the layer combine of the arrays as the region finds them. -/
theorem flushed (c : Dev nD) (t : Fin cfg3.N) :
    (dat3 V c).flushed 8 t = ((cfg3.win 8).blk t).view.read (Elt Ideal)
      (comb (a := 100000) (b := 128) εw zw (V c main_v56) (V c main_v68) (V c main_v12) (V c main_v77) (V c main_v78) (V c main_v79) (V c main_v80) (V c main_v81)) := by
  show (cfg3.win 8).cut (grid3.coords t) ((dat3 V c).after 8 t) = _
  rw [after3_8]
  unfold out3_8
  rw [View.canon_unit_zero hz]
  simp only [View.ld_unit_zero (S := S1000x128) hz, View.ld_unit_zero (S := S1000x1) hz, View.ld_unit_zero (S := S1x128) hz]
  rw [pay3]
  obtain ⟨e00, e01, e10, e11, e20, e21, e30, e31, e40, e41, e50, e51, e60, e61, e70, e71, e80, e81⟩ := idx_facts t
  funext j
  show comb εw zw (iblk3 V c 0 t) (iblk3 V c 1 t) (iblk3 V c 2 t) (iblk3 V c 3 t) (iblk3 V c 4 t) (iblk3 V c 5 t) (iblk3 V c 6 t) (iblk3 V c 7 t) j
    = comb (a := 100000) (b := 128) εw zw (V c main_v56) (V c main_v68) (V c main_v12) (V c main_v77) (V c main_v78) (V c main_v79) (V c main_v80) (V c main_v81) (((cfg3.win 8).blk t).view.emb j)
  refine comb_congr εw zw (V c main_v56) (V c main_v68) (V c main_v12) (V c main_v77) (V c main_v78) (V c main_v79) (V c main_v80) (V c main_v81)
    (iblk3 V c 0 t) (iblk3 V c 1 t) (iblk3 V c 2 t) (iblk3 V c 3 t) (iblk3 V c 4 t) (iblk3 V c 5 t) (iblk3 V c 6 t) (iblk3 V c 7 t) (((cfg3.win 8).blk t).view.emb j) j
    ?_ ?_ ?_ ?_ ?_ ?_ ?_ ?_
  · show V c main_v56 (((cfg3.win 0).blk t).view.emb j) = V c main_v56 (((cfg3.win 8).blk t).view.emb j)
    refine congrArg _ (funext fun a => Fin.ext ?_)
    match a with
    | ⟨0, _⟩ => show win3_0.index t (0 : Fin 2) * 1000 + 1 * (j 0).val = win3_8.index t (0 : Fin 2) * 1000 + 1 * (j 0).val; omega
    | ⟨1, _⟩ => show win3_0.index t (1 : Fin 2) * 128 + 1 * (j 1).val = win3_8.index t (1 : Fin 2) * 128 + 1 * (j 1).val; omega
  · show V c main_v68 (((cfg3.win 1).blk t).view.emb j) = V c main_v68 (((cfg3.win 8).blk t).view.emb j)
    refine congrArg _ (funext fun a => Fin.ext ?_)
    match a with
    | ⟨0, _⟩ => show win3_1.index t (0 : Fin 2) * 1000 + 1 * (j 0).val = win3_8.index t (0 : Fin 2) * 1000 + 1 * (j 0).val; omega
    | ⟨1, _⟩ => show win3_1.index t (1 : Fin 2) * 128 + 1 * (j 1).val = win3_8.index t (1 : Fin 2) * 128 + 1 * (j 1).val; omega
  · show V c main_v12 (((cfg3.win 2).blk t).view.emb (ix2 (j 0) (0 : Fin 1))) = V c main_v12 (ix2 ((((cfg3.win 8).blk t).view.emb j) 0) (0 : Fin 1))
    refine congrArg _ (funext fun a => Fin.ext ?_)
    match a with
    | ⟨0, _⟩ => show win3_2.index t (0 : Fin 2) * 1000 + 1 * (j 0).val = win3_8.index t (0 : Fin 2) * 1000 + 1 * (j 0).val; omega
    | ⟨1, _⟩ => show win3_2.index t (1 : Fin 2) * 1 + 1 * 0 = 0; omega
  · show V c main_v77 (((cfg3.win 3).blk t).view.emb (ix2 (0 : Fin 1) (j 1))) = V c main_v77 (ix2 (0 : Fin 1) ((((cfg3.win 8).blk t).view.emb j) 1))
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_8.index t (1 : Fin 2) * 128 + 1 * (j 1).val; omega
  · show V c main_v78 (((cfg3.win 4).blk t).view.emb (ix2 (0 : Fin 1) (j 1))) = V c main_v78 (ix2 (0 : Fin 1) ((((cfg3.win 8).blk t).view.emb j) 1))
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * (j 1).val = win3_8.index t (1 : Fin 2) * 128 + 1 * (j 1).val; omega
  · show V c main_v79 (((cfg3.win 5).blk t).view.emb (ix2 (0 : Fin 1) (j 1))) = V c main_v79 (ix2 (0 : Fin 1) ((((cfg3.win 8).blk t).view.emb j) 1))
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * (j 1).val = win3_8.index t (1 : Fin 2) * 128 + 1 * (j 1).val; omega
  · show V c main_v80 (((cfg3.win 6).blk t).view.emb (ix2 (0 : Fin 1) (j 1))) = V c main_v80 (ix2 (0 : Fin 1) ((((cfg3.win 8).blk t).view.emb j) 1))
    refine congrArg _ (funext fun a => Fin.ext ?_)
    match a with
    | ⟨0, _⟩ => show win3_6.index t (0 : Fin 2) * 1 + 1 * 0 = 0; omega
    | ⟨1, _⟩ => show win3_6.index t (1 : Fin 2) * 128 + 1 * (j 1).val = win3_8.index t (1 : Fin 2) * 128 + 1 * (j 1).val; omega
  · show V c main_v81 (((cfg3.win 7).blk t).view.emb (ix2 (0 : Fin 1) (j 1))) = V c main_v81 (ix2 (0 : Fin 1) ((((cfg3.win 8).blk t).view.emb j) 1))
    refine congrArg _ (funext fun a => Fin.ext ?_)
    match a with
    | ⟨0, _⟩ => show win3_7.index t (0 : Fin 2) * 1 + 1 * 0 = 0; omega
    | ⟨1, _⟩ => show win3_7.index t (1 : Fin 2) * 128 + 1 * (j 1).val = win3_8.index t (1 : Fin 2) * 128 + 1 * (j 1).val; omega

/-- An index of the array is in point `t`'s block iff each coordinate is in the block's range on its axis. -/
theorem mem_blk (t : Fin cfg3.N) (i : S100000x128.Idx) :
    i ∈ ((cfg3.win 8).blk t).view.set ↔ ∀ a : Fin 2, win3_8.index t a * S1000x128.size a ≤ (i a).val ∧ (i a).val < win3_8.index t a * S1000x128.size a + S1000x128.size a := by
  show i ∈ ((View.whole main_v82).slice (win3_8.rect t)).set ↔ _
  rw [View.set_slice_whole, Rect.mem_set_unit]
  exact Iff.rfl

/-- Every row of the array lies in the block of the point `row / 1000`: the hundred blocks of a thousand rows tile it. -/
theorem cover (i : S100000x128.Idx) : ∃ t : Fin cfg3.N, (cfg3.win 8).flush t = true ∧ i ∈ ((cfg3.win 8).blk t).view.set := by
  have hi0 : (i 0).val < 100000 := (i 0).isLt
  have hi1 : (i 1).val < 128 := (i 1).isLt
  have ht : (i 0).val / 1000 < cfg3.N := lt_of_lt_of_eq (by omega : (i 0).val / 1000 < 100) N_3.symm
  obtain ⟨t, htv⟩ : ∃ t : Fin cfg3.N, t.val = (i 0).val / 1000 := ⟨⟨(i 0).val / 1000, ht⟩, rfl⟩
  obtain ⟨e00, e01, e10, e11, e20, e21, e30, e31, e40, e41, e50, e51, e60, e61, e70, e71, e80, e81⟩ := idx_facts t
  refine ⟨t, flush3_8 t, ?_⟩
  rw [mem_blk]
  intro a
  match a with
  | ⟨0, _⟩ => show win3_8.index t (0 : Fin 2) * 1000 ≤ (i 0).val ∧ (i 0).val < win3_8.index t (0 : Fin 2) * 1000 + 1000; omega
  | ⟨1, _⟩ => show win3_8.index t (1 : Fin 2) * 128 ≤ (i 1).val ∧ (i 1).val < win3_8.index t (1 : Fin 2) * 128 + 128; omega

/-- After the region the result array is the layer combine of the eight arrays as the region found them. -/
theorem final (c : Dev nD) :
    (dat3 V c).arrAt 8 cfg3.N = comb (a := 100000) (b := 128) εw zw (V c main_v56) (V c main_v68) (V c main_v12) (V c main_v77) (V c main_v78) (V c main_v79) (V c main_v80) (V c main_v81) :=
  (dat3 V c).arrAt_eq_of_cover 8 (comb (a := 100000) (b := 128) εw zw (V c main_v56) (V c main_v68) (V c main_v12) (V c main_v77) (V c main_v78) (V c main_v79) (V c main_v80) (V c main_v81))
    (fun t _ => flushed V c t) cover

end Cert.KernelIdeal.Region3

end
-- ==== Proof.Region4.lean ====
/-
  The third layer's linear map as a region: a hundred grid points, point `t` multiplying rows `1000 t … 1000 t + 999` of the
  input by the whole weight matrix. Each point writes back that block of rows of the matrix product, and the blocks
  tile the result, so after the region the result array is the matrix product of the two arrays as the region found them.
-/
import proofs.«132452_j56418690400931_1_alg».proof.Proof.Gen.KernelIdeal.Frame
import proofs.«132452_j56418690400931_1_alg».proof.Proof.Spec
import proofs.«132452_j56418690400931_1_alg».proof.Proof.PayBlocks
import Idealize.ShloMosaic.Lib.Pipeline.Value
import Idealize.ShloMosaic.Lib.ValueIdx

set_option maxRecDepth 16384

noncomputable section

namespace Cert.KernelIdeal.Region4

open Cert.KernelIdeal Cert.KernelIdeal.Gen Cert.KernelIdeal.Blocks Cert.GcnSpec
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input's and the result's row block is the point, every other
    block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the matrix product of the arrays as the region finds them. -/
theorem flushed (c : Dev nD) (t : Fin cfg4.N) :
    (dat4 V c).flushed 2 t = ((cfg4.win 2).blk t).view.read (Elt Ideal)
      (mm (a := 100000) (k := 128) (b := 128) (V c main_v82) (V c main_arg6)) := by
  show (cfg4.win 2).cut (grid4.coords t) ((dat4 V c).after 2 t) = _
  rw [after4_2]
  unfold out4_2
  rw [View.canon_unit_zero hz]
  simp only [View.ld_unit_zero (S := S1000x128) hz, View.ld_unit_zero (S := S128x128) hz]
  rw [pay4]
  obtain ⟨e00, e01, e10, e11, e20, e21⟩ := idx_facts t
  funext j
  show mm (iblk4 V c 0 t) (iblk4 V c 1 t) j
    = mm (a := 100000) (k := 128) (b := 128) (V c main_v82) (V c main_arg6) (((cfg4.win 2).blk t).view.emb j)
  refine mm_congr (V c main_v82) (iblk4 V c 0 t) (V c main_arg6) (iblk4 V c 1 t) _ j (fun q => ?_) (fun q => ?_)
  · show V c main_v82 (((cfg4.win 0).blk t).view.emb (ix2 (j 0) q)) = V c main_v82 (ix2 ((((cfg4.win 2).blk t).view.emb j) 0) q)
    refine congrArg _ (funext fun a => Fin.ext ?_)
    match a with
    | ⟨0, _⟩ => show win4_0.index t (0 : Fin 2) * 1000 + 1 * (j 0).val = win4_2.index t (0 : Fin 2) * 1000 + 1 * (j 0).val; omega
    | ⟨1, _⟩ => show win4_0.index t (1 : Fin 2) * 128 + 1 * q.val = q.val; omega
  · show V c main_arg6 (((cfg4.win 1).blk t).view.emb (ix2 q (j 1))) = V c main_arg6 (ix2 q ((((cfg4.win 2).blk t).view.emb j) 1))
    refine congrArg _ (funext fun a => Fin.ext ?_)
    match a with
    | ⟨0, _⟩ => show win4_1.index t (0 : Fin 2) * 128 + 1 * q.val = q.val; omega
    | ⟨1, _⟩ => show win4_1.index t (1 : Fin 2) * 128 + 1 * (j 1).val = win4_2.index t (1 : Fin 2) * 128 + 1 * (j 1).val; omega

/-- An index of the array is in point `t`'s block iff each coordinate is in the block's range on its axis. -/
theorem mem_blk (t : Fin cfg4.N) (i : S100000x128.Idx) :
    i ∈ ((cfg4.win 2).blk t).view.set ↔ ∀ a : Fin 2, win4_2.index t a * S1000x128.size a ≤ (i a).val ∧ (i a).val < win4_2.index t a * S1000x128.size a + S1000x128.size a := by
  show i ∈ ((View.whole main_v83).slice (win4_2.rect t)).set ↔ _
  rw [View.set_slice_whole, Rect.mem_set_unit]
  exact Iff.rfl

/-- Every row of the array lies in the block of the point `row / 1000`: the hundred blocks of a thousand rows tile it. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 1000 < cfg4.N := lt_of_lt_of_eq (by omega : (i 0).val / 1000 < 100) N_4.symm
  obtain ⟨t, htv⟩ : ∃ t : Fin cfg4.N, t.val = (i 0).val / 1000 := ⟨⟨(i 0).val / 1000, ht⟩, rfl⟩
  obtain ⟨e00, e01, e10, e11, e20, e21⟩ := idx_facts t
  refine ⟨t, flush4_2 t, ?_⟩
  rw [mem_blk]
  intro a
  match a with
  | ⟨0, _⟩ => show win4_2.index t (0 : Fin 2) * 1000 ≤ (i 0).val ∧ (i 0).val < win4_2.index t (0 : Fin 2) * 1000 + 1000; omega
  | ⟨1, _⟩ => show win4_2.index t (1 : Fin 2) * 128 ≤ (i 1).val ∧ (i 1).val < win4_2.index t (1 : Fin 2) * 128 + 128; omega

/-- After the region the result array is the matrix product of the input and weight arrays as the region found them. -/
theorem final (c : Dev nD) :
    (dat4 V c).arrAt 2 cfg4.N = mm (a := 100000) (k := 128) (b := 128) (V c main_v82) (V c main_arg6) :=
  (dat4 V c).arrAt_eq_of_cover 2 (mm (a := 100000) (k := 128) (b := 128) (V c main_v82) (V c main_arg6))
    (fun t _ => flushed V c t) cover

end Cert.KernelIdeal.Region4

end
-- ==== Proof.Region5.lean ====
/-
  The third layer's combine as a region: a hundred grid points, point `t` taking rows `1000 t … 1000 t + 999` of the
  linear map's result, of the aggregated messages and of the self-loop column, and the five parameter rows whole. Each
  point writes back that block of rows of the layer combine, and the blocks tile the result.
-/
import proofs.«132452_j56418690400931_1_alg».proof.Proof.Gen.KernelIdeal.Frame
import proofs.«132452_j56418690400931_1_alg».proof.Proof.Spec
import proofs.«132452_j56418690400931_1_alg».proof.Proof.PayBlocks
import Idealize.ShloMosaic.Lib.Pipeline.Value
import Idealize.ShloMosaic.Lib.ValueIdx

set_option maxRecDepth 16384

noncomputable section

namespace Cert.KernelIdeal.Region5

open Cert.KernelIdeal Cert.KernelIdeal.Gen Cert.KernelIdeal.Blocks Cert.GcnSpec
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the three row-blocked inputs and the result sit at row block `t`,
    every other block index is zero. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

set_option maxHeartbeats 3200000 in
/-- What point `t` writes back is block `t` of the layer combine of the arrays as the region finds them. -/
theorem flushed (c : Dev nD) (t : Fin cfg5.N) :
    (dat5 V c).flushed 8 t = ((cfg5.win 8).blk t).view.read (Elt Ideal)
      (comb (a := 100000) (b := 128) εw zw (V c main_v83) (V c main_v95) (V c main_v12) (V c main_v104) (V c main_v105) (V c main_v106) (V c main_v107) (V c main_v108)) := by
  show (cfg5.win 8).cut (grid5.coords t) ((dat5 V c).after 8 t) = _
  rw [after5_8]
  unfold out5_8
  rw [View.canon_unit_zero hz]
  simp only [View.ld_unit_zero (S := S1000x128) hz, View.ld_unit_zero (S := S1000x1) hz, View.ld_unit_zero (S := S1x128) hz]
  rw [pay5]
  obtain ⟨e00, e01, e10, e11, e20, e21, e30, e31, e40, e41, e50, e51, e60, e61, e70, e71, e80, e81⟩ := idx_facts t
  funext j
  show comb εw zw (iblk5 V c 0 t) (iblk5 V c 1 t) (iblk5 V c 2 t) (iblk5 V c 3 t) (iblk5 V c 4 t) (iblk5 V c 5 t) (iblk5 V c 6 t) (iblk5 V c 7 t) j
    = comb (a := 100000) (b := 128) εw zw (V c main_v83) (V c main_v95) (V c main_v12) (V c main_v104) (V c main_v105) (V c main_v106) (V c main_v107) (V c main_v108) (((cfg5.win 8).blk t).view.emb j)
  refine comb_congr εw zw (V c main_v83) (V c main_v95) (V c main_v12) (V c main_v104) (V c main_v105) (V c main_v106) (V c main_v107) (V c main_v108)
    (iblk5 V c 0 t) (iblk5 V c 1 t) (iblk5 V c 2 t) (iblk5 V c 3 t) (iblk5 V c 4 t) (iblk5 V c 5 t) (iblk5 V c 6 t) (iblk5 V c 7 t) (((cfg5.win 8).blk t).view.emb j) j
    ?_ ?_ ?_ ?_ ?_ ?_ ?_ ?_
  · show V c main_v83 (((cfg5.win 0).blk t).view.emb j) = V c main_v83 (((cfg5.win 8).blk t).view.emb j)
    refine congrArg _ (funext fun a => Fin.ext ?_)
    match a with
    | ⟨0, _⟩ => show win5_0.index t (0 : Fin 2) * 1000 + 1 * (j 0).val = win5_8.index t (0 : Fin 2) * 1000 + 1 * (j 0).val; omega
    | ⟨1, _⟩ => show win5_0.index t (1 : Fin 2) * 128 + 1 * (j 1).val = win5_8.index t (1 : Fin 2) * 128 + 1 * (j 1).val; omega
  · show V c main_v95 (((cfg5.win 1).blk t).view.emb j) = V c main_v95 (((cfg5.win 8).blk t).view.emb j)
    refine congrArg _ (funext fun a => Fin.ext ?_)
    match a with
    | ⟨0, _⟩ => show win5_1.index t (0 : Fin 2) * 1000 + 1 * (j 0).val = win5_8.index t (0 : Fin 2) * 1000 + 1 * (j 0).val; omega
    | ⟨1, _⟩ => show win5_1.index t (1 : Fin 2) * 128 + 1 * (j 1).val = win5_8.index t (1 : Fin 2) * 128 + 1 * (j 1).val; omega
  · show V c main_v12 (((cfg5.win 2).blk t).view.emb (ix2 (j 0) (0 : Fin 1))) = V c main_v12 (ix2 ((((cfg5.win 8).blk t).view.emb j) 0) (0 : Fin 1))
    refine congrArg _ (funext fun a => Fin.ext ?_)
    match a with
    | ⟨0, _⟩ => show win5_2.index t (0 : Fin 2) * 1000 + 1 * (j 0).val = win5_8.index t (0 : Fin 2) * 1000 + 1 * (j 0).val; omega
    | ⟨1, _⟩ => show win5_2.index t (1 : Fin 2) * 1 + 1 * 0 = 0; omega
  · show V c main_v104 (((cfg5.win 3).blk t).view.emb (ix2 (0 : Fin 1) (j 1))) = V c main_v104 (ix2 (0 : Fin 1) ((((cfg5.win 8).blk t).view.emb j) 1))
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * (j 1).val = win5_8.index t (1 : Fin 2) * 128 + 1 * (j 1).val; omega
  · show V c main_v105 (((cfg5.win 4).blk t).view.emb (ix2 (0 : Fin 1) (j 1))) = V c main_v105 (ix2 (0 : Fin 1) ((((cfg5.win 8).blk t).view.emb j) 1))
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * (j 1).val = win5_8.index t (1 : Fin 2) * 128 + 1 * (j 1).val; omega
  · show V c main_v106 (((cfg5.win 5).blk t).view.emb (ix2 (0 : Fin 1) (j 1))) = V c main_v106 (ix2 (0 : Fin 1) ((((cfg5.win 8).blk t).view.emb j) 1))
    refine congrArg _ (funext fun a => Fin.ext ?_)
    match a with
    | ⟨0, _⟩ => show win5_5.index t (0 : Fin 2) * 1 + 1 * 0 = 0; omega
    | ⟨1, _⟩ => show win5_5.index t (1 : Fin 2) * 128 + 1 * (j 1).val = win5_8.index t (1 : Fin 2) * 128 + 1 * (j 1).val; omega
  · show V c main_v107 (((cfg5.win 6).blk t).view.emb (ix2 (0 : Fin 1) (j 1))) = V c main_v107 (ix2 (0 : Fin 1) ((((cfg5.win 8).blk t).view.emb j) 1))
    refine congrArg _ (funext fun a => Fin.ext ?_)
    match a with
    | ⟨0, _⟩ => show win5_6.index t (0 : Fin 2) * 1 + 1 * 0 = 0; omega
    | ⟨1, _⟩ => show win5_6.index t (1 : Fin 2) * 128 + 1 * (j 1).val = win5_8.index t (1 : Fin 2) * 128 + 1 * (j 1).val; omega
  · show V c main_v108 (((cfg5.win 7).blk t).view.emb (ix2 (0 : Fin 1) (j 1))) = V c main_v108 (ix2 (0 : Fin 1) ((((cfg5.win 8).blk t).view.emb j) 1))
    refine congrArg _ (funext fun a => Fin.ext ?_)
    match a with
    | ⟨0, _⟩ => show win5_7.index t (0 : Fin 2) * 1 + 1 * 0 = 0; omega
    | ⟨1, _⟩ => show win5_7.index t (1 : Fin 2) * 128 + 1 * (j 1).val = win5_8.index t (1 : Fin 2) * 128 + 1 * (j 1).val; omega

/-- An index of the array is in point `t`'s block iff each coordinate is in the block's range on its axis. -/
theorem mem_blk (t : Fin cfg5.N) (i : S100000x128.Idx) :
    i ∈ ((cfg5.win 8).blk t).view.set ↔ ∀ a : Fin 2, win5_8.index t a * S1000x128.size a ≤ (i a).val ∧ (i a).val < win5_8.index t a * S1000x128.size a + S1000x128.size a := by
  show i ∈ ((View.whole main_v109).slice (win5_8.rect t)).set ↔ _
  rw [View.set_slice_whole, Rect.mem_set_unit]
  exact Iff.rfl

/-- Every row of the array lies in the block of the point `row / 1000`: the hundred blocks of a thousand rows tile it. -/
theorem cover (i : S100000x128.Idx) : ∃ t : Fin cfg5.N, (cfg5.win 8).flush t = true ∧ i ∈ ((cfg5.win 8).blk t).view.set := by
  have hi0 : (i 0).val < 100000 := (i 0).isLt
  have hi1 : (i 1).val < 128 := (i 1).isLt
  have ht : (i 0).val / 1000 < cfg5.N := lt_of_lt_of_eq (by omega : (i 0).val / 1000 < 100) N_5.symm
  obtain ⟨t, htv⟩ : ∃ t : Fin cfg5.N, t.val = (i 0).val / 1000 := ⟨⟨(i 0).val / 1000, ht⟩, rfl⟩
  obtain ⟨e00, e01, e10, e11, e20, e21, e30, e31, e40, e41, e50, e51, e60, e61, e70, e71, e80, e81⟩ := idx_facts t
  refine ⟨t, flush5_8 t, ?_⟩
  rw [mem_blk]
  intro a
  match a with
  | ⟨0, _⟩ => show win5_8.index t (0 : Fin 2) * 1000 ≤ (i 0).val ∧ (i 0).val < win5_8.index t (0 : Fin 2) * 1000 + 1000; omega
  | ⟨1, _⟩ => show win5_8.index t (1 : Fin 2) * 128 ≤ (i 1).val ∧ (i 1).val < win5_8.index t (1 : Fin 2) * 128 + 128; omega

/-- After the region the result array is the layer combine of the eight arrays as the region found them. -/
theorem final (c : Dev nD) :
    (dat5 V c).arrAt 8 cfg5.N = comb (a := 100000) (b := 128) εw zw (V c main_v83) (V c main_v95) (V c main_v12) (V c main_v104) (V c main_v105) (V c main_v106) (V c main_v107) (V c main_v108) :=
  (dat5 V c).arrAt_eq_of_cover 8 (comb (a := 100000) (b := 128) εw zw (V c main_v83) (V c main_v95) (V c main_v12) (V c main_v104) (V c main_v105) (V c main_v106) (V c main_v107) (V c main_v108))
    (fun t _ => flushed V c t) cover

end Cert.KernelIdeal.Region5

end
-- ==== Proof.Region6.lean ====
/-
  The two-layer head as a region: a hundred grid points, point `t` taking rows `1000 t … 1000 t + 999` of the third
  layer's output and the head's four small parameters whole. Each point writes back that block of rows of the head's
  result, and the blocks tile the result column.
-/
import proofs.«132452_j56418690400931_1_alg».proof.Proof.Gen.KernelIdeal.Frame
import proofs.«132452_j56418690400931_1_alg».proof.Proof.Spec
import proofs.«132452_j56418690400931_1_alg».proof.Proof.PayBlocks
import Idealize.ShloMosaic.Lib.Pipeline.Value
import Idealize.ShloMosaic.Lib.ValueIdx

set_option maxRecDepth 16384

noncomputable section

namespace Cert.KernelIdeal.Region6

open Cert.KernelIdeal Cert.KernelIdeal.Gen Cert.KernelIdeal.Blocks Cert.GcnSpec
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the input and the result sit at row block `t`, every other block
    index is zero. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- What point `t` writes back is block `t` of the head of the arrays as the region finds them. -/
theorem flushed (c : Dev nD) (t : Fin cfg6.N) :
    (dat6 V c).flushed 5 t = ((cfg6.win 5).blk t).view.read (Elt Ideal)
      (cls (a := 100000) (h := 128) (k := 64) zw (V c main_v109) (V c main_arg12) (V c main_v110) (V c main_arg14) (V c main_v111)) := by
  show (cfg6.win 5).cut (grid6.coords t) ((dat6 V c).after 5 t) = _
  rw [after6_5]
  unfold out6_5
  rw [View.canon_unit_zero hz]
  simp only [View.ld_unit_zero (S := S1000x128) hz, View.ld_unit_zero (S := S128x64) hz, View.ld_unit_zero (S := S1x64) hz,
    View.ld_unit_zero (S := S64x1) hz, View.ld_unit_zero (S := S1x1) hz]
  rw [pay6]
  obtain ⟨e00, e01, e10, e11, e20, e21, e30, e31, e40, e41, e50, e51⟩ := idx_facts t
  funext j
  show cls zw (iblk6 V c 0 t) (iblk6 V c 1 t) (iblk6 V c 2 t) (iblk6 V c 3 t) (iblk6 V c 4 t) j
    = cls (a := 100000) (h := 128) (k := 64) zw (V c main_v109) (V c main_arg12) (V c main_v110) (V c main_arg14) (V c main_v111) (((cfg6.win 5).blk t).view.emb j)
  refine cls_congr zw (V c main_v109) (iblk6 V c 0 t) (V c main_arg12) (iblk6 V c 1 t) (V c main_v110) (iblk6 V c 2 t)
    (V c main_arg14) (iblk6 V c 3 t) (V c main_v111) (iblk6 V c 4 t) (((cfg6.win 5).blk t).view.emb j) j (fun l => ?_) ?_ ?_ ?_ ?_ ?_
  · show V c main_v109 (((cfg6.win 0).blk t).view.emb (ix2 (j 0) l)) = V c main_v109 (ix2 ((((cfg6.win 5).blk t).view.emb j) 0) l)
    refine congrArg _ (funext fun a => Fin.ext ?_)
    match a with
    | ⟨0, _⟩ => show win6_0.index t (0 : Fin 2) * 1000 + 1 * (j 0).val = win6_5.index t (0 : Fin 2) * 1000 + 1 * (j 0).val; omega
    | ⟨1, _⟩ => show win6_0.index t (1 : Fin 2) * 128 + 1 * l.val = l.val; omega
  · funext y
    show V c main_arg12 (((cfg6.win 1).blk t).view.emb y) = V c main_arg12 y
    refine congrArg _ (funext fun a => Fin.ext ?_)
    match a with
    | ⟨0, _⟩ => show win6_1.index t (0 : Fin 2) * 128 + 1 * (y 0).val = (y 0).val; omega
    | ⟨1, _⟩ => show win6_1.index t (1 : Fin 2) * 64 + 1 * (y 1).val = (y 1).val; omega
  · funext y
    show V c main_v110 (((cfg6.win 2).blk t).view.emb y) = V c main_v110 y
    refine congrArg _ (funext fun a => Fin.ext ?_)
    match a with
    | ⟨0, _⟩ => show win6_2.index t (0 : Fin 2) * 1 + 1 * (y 0).val = (y 0).val; omega
    | ⟨1, _⟩ => show win6_2.index t (1 : Fin 2) * 64 + 1 * (y 1).val = (y 1).val; omega
  · funext y
    show V c main_arg14 (((cfg6.win 3).blk t).view.emb y) = V c main_arg14 y
    refine congrArg _ (funext fun a => Fin.ext ?_)
    match a with
    | ⟨0, _⟩ => show win6_3.index t (0 : Fin 2) * 64 + 1 * (y 0).val = (y 0).val; omega
    | ⟨1, _⟩ => show win6_3.index t (1 : Fin 2) * 1 + 1 * (y 1).val = (y 1).val; omega
  · funext y
    show V c main_v111 (((cfg6.win 4).blk t).view.emb y) = V c main_v111 y
    refine congrArg _ (funext fun a => Fin.ext ?_)
    match a with
    | ⟨0, _⟩ => show win6_4.index t (0 : Fin 2) * 1 + 1 * (y 0).val = (y 0).val; omega
    | ⟨1, _⟩ => show win6_4.index t (1 : Fin 2) * 1 + 1 * (y 1).val = (y 1).val; omega
  · apply Fin.ext
    show win6_5.index t (1 : Fin 2) * 1 + 1 * (j 1).val = (j 1).val
    omega

/-- An index of the array is in point `t`'s block iff each coordinate is in the block's range on its axis. -/
theorem mem_blk (t : Fin cfg6.N) (i : S100000x1.Idx) :
    i ∈ ((cfg6.win 5).blk t).view.set ↔ ∀ a : Fin 2, win6_5.index t a * S1000x1.size a ≤ (i a).val ∧ (i a).val < win6_5.index t a * S1000x1.size a + S1000x1.size a := by
  show i ∈ ((View.whole main_v112).slice (win6_5.rect t)).set ↔ _
  rw [View.set_slice_whole, Rect.mem_set_unit]
  exact Iff.rfl

/-- Every row of the array lies in the block of the point `row / 1000`: the hundred blocks of a thousand rows tile it. -/
theorem cover (i : S100000x1.Idx) : ∃ t : Fin cfg6.N, (cfg6.win 5).flush t = true ∧ i ∈ ((cfg6.win 5).blk t).view.set := by
  have hi0 : (i 0).val < 100000 := (i 0).isLt
  have hi1 : (i 1).val < 1 := (i 1).isLt
  have ht : (i 0).val / 1000 < cfg6.N := lt_of_lt_of_eq (by omega : (i 0).val / 1000 < 100) N_6.symm
  obtain ⟨t, htv⟩ : ∃ t : Fin cfg6.N, t.val = (i 0).val / 1000 := ⟨⟨(i 0).val / 1000, ht⟩, rfl⟩
  obtain ⟨e00, e01, e10, e11, e20, e21, e30, e31, e40, e41, e50, e51⟩ := idx_facts t
  refine ⟨t, flush6_5 t, ?_⟩
  rw [mem_blk]
  intro a
  match a with
  | ⟨0, _⟩ => show win6_5.index t (0 : Fin 2) * 1000 ≤ (i 0).val ∧ (i 0).val < win6_5.index t (0 : Fin 2) * 1000 + 1000; omega
  | ⟨1, _⟩ => show win6_5.index t (1 : Fin 2) * 1 ≤ (i 1).val ∧ (i 1).val < win6_5.index t (1 : Fin 2) * 1 + 1; omega

/-- After the region the result column is the head of the five arrays as the region found them. -/
theorem final (c : Dev nD) :
    (dat6 V c).arrAt 5 cfg6.N = cls (a := 100000) (h := 128) (k := 64) zw (V c main_v109) (V c main_arg12) (V c main_v110) (V c main_arg14) (V c main_v111) :=
  (dat6 V c).arrAt_eq_of_cover 5 (cls (a := 100000) (h := 128) (k := 64) zw (V c main_v109) (V c main_arg12) (V c main_v110) (V c main_arg14) (V c main_v111))
    (fun t _ => flushed V c t) cover

end Cert.KernelIdeal.Region6

end
-- ==== Proof.KernelValue.lean ====
/-
  The kernel program's result array, read through its run. The run is a fold of buffer contents: a stretch of host
  operations rewrites the buffers it writes, a region rewrites its result array with what its write-backs leave. At
  every boundary the buffers still to be read hold the reference program's stages of the launch contents of the
  arguments: the edge endpoints and the two normalisation arrays after the first stretch; after a linear-map region
  the matrix product; after a stretch the aggregated messages (the same gathers and scatter-add as the reference) and
  the parameter rows; after a combine region the layer's output; after the head the reference's result.
-/
import proofs.«132452_j56418690400931_1_alg».proof.Proof.Gen.KernelIdeal.Frame
import proofs.«132452_j56418690400931_1_alg».proof.Proof.Gen.ReferenceIdeal.Read
import proofs.«132452_j56418690400931_1_alg».proof.Proof.RefLayers
import proofs.«132452_j56418690400931_1_alg».proof.Proof.HostStretches
import proofs.«132452_j56418690400931_1_alg».proof.Proof.Region0
import proofs.«132452_j56418690400931_1_alg».proof.Proof.Region1
import proofs.«132452_j56418690400931_1_alg».proof.Proof.Region2
import proofs.«132452_j56418690400931_1_alg».proof.Proof.Region3
import proofs.«132452_j56418690400931_1_alg».proof.Proof.Region4
import proofs.«132452_j56418690400931_1_alg».proof.Proof.Region5
import proofs.«132452_j56418690400931_1_alg».proof.Proof.Region6

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.Read Cert.GcnSpec
open Idealize.ShloMosaic.Pipeline (Dat)

variable (m : (ℓ : Loc nD τ sig) → Buf (Elt Ideal) ℓ) (ρ : Dev nD → PrngReg) (c : Dev nD)

/-! ## After the first stretch: the edge endpoints, the self-loop column and the edge weights -/

theorem w1_arg0 : W1 m ρ c (Proc.devRef .tc main_arg0) = (m ((c : Thread nD τ).loc main_arg0)) :=
  Stretch.keep0 (W0 m ρ c) main_arg0 (by decide)
theorem w1_arg1 : W1 m ρ c (Proc.devRef .tc main_arg1) = (m ((c : Thread nD τ).loc main_arg1)) :=
  Stretch.keep0 (W0 m ρ c) main_arg1 (by decide)
theorem w1_arg2 : W1 m ρ c (Proc.devRef .tc main_arg2) = (m ((c : Thread nD τ).loc main_arg2)) :=
  Stretch.keep0 (W0 m ρ c) main_arg2 (by decide)
theorem w1_arg3 : W1 m ρ c (Proc.devRef .tc main_arg3) = (m ((c : Thread nD τ).loc main_arg3)) :=
  Stretch.keep0 (W0 m ρ c) main_arg3 (by decide)
theorem w1_arg4 : W1 m ρ c (Proc.devRef .tc main_arg4) = (m ((c : Thread nD τ).loc main_arg4)) :=
  Stretch.keep0 (W0 m ρ c) main_arg4 (by decide)
theorem w1_arg5 : W1 m ρ c (Proc.devRef .tc main_arg5) = (m ((c : Thread nD τ).loc main_arg5)) :=
  Stretch.keep0 (W0 m ρ c) main_arg5 (by decide)
theorem w1_arg6 : W1 m ρ c (Proc.devRef .tc main_arg6) = (m ((c : Thread nD τ).loc main_arg6)) :=
  Stretch.keep0 (W0 m ρ c) main_arg6 (by decide)
theorem w1_arg7 : W1 m ρ c (Proc.devRef .tc main_arg7) = (m ((c : Thread nD τ).loc main_arg7)) :=
  Stretch.keep0 (W0 m ρ c) main_arg7 (by decide)
theorem w1_arg8 : W1 m ρ c (Proc.devRef .tc main_arg8) = (m ((c : Thread nD τ).loc main_arg8)) :=
  Stretch.keep0 (W0 m ρ c) main_arg8 (by decide)
theorem w1_arg9 : W1 m ρ c (Proc.devRef .tc main_arg9) = (m ((c : Thread nD τ).loc main_arg9)) :=
  Stretch.keep0 (W0 m ρ c) main_arg9 (by decide)
theorem w1_arg10 : W1 m ρ c (Proc.devRef .tc main_arg10) = (m ((c : Thread nD τ).loc main_arg10)) :=
  Stretch.keep0 (W0 m ρ c) main_arg10 (by decide)
theorem w1_arg11 : W1 m ρ c (Proc.devRef .tc main_arg11) = (m ((c : Thread nD τ).loc main_arg11)) :=
  Stretch.keep0 (W0 m ρ c) main_arg11 (by decide)
theorem w1_arg12 : W1 m ρ c (Proc.devRef .tc main_arg12) = (m ((c : Thread nD τ).loc main_arg12)) :=
  Stretch.keep0 (W0 m ρ c) main_arg12 (by decide)
theorem w1_arg13 : W1 m ρ c (Proc.devRef .tc main_arg13) = (m ((c : Thread nD τ).loc main_arg13)) :=
  Stretch.keep0 (W0 m ρ c) main_arg13 (by decide)
theorem w1_arg14 : W1 m ρ c (Proc.devRef .tc main_arg14) = (m ((c : Thread nD τ).loc main_arg14)) :=
  Stretch.keep0 (W0 m ρ c) main_arg14 (by decide)
theorem w1_arg15 : W1 m ρ c (Proc.devRef .tc main_arg15) = (m ((c : Thread nD τ).loc main_arg15)) :=
  Stretch.keep0 (W0 m ρ c) main_arg15 (by decide)
theorem w1_v1 : W1 m ρ c (Proc.devRef .tc main_v1) = (val_main_v1 (F := Ideal) (m ((c : Thread nD τ).loc main_arg1))) := Stretch.s0_v1 (W0 m ρ c)
theorem w1_v3 : W1 m ρ c (Proc.devRef .tc main_v3) = (val_main_v3 (F := Ideal) (m ((c : Thread nD τ).loc main_arg1))) := Stretch.s0_v3 (W0 m ρ c)
theorem w1_v12 : W1 m ρ c (Proc.devRef .tc main_v12) = (shapeCast S100000x1 (val_main_v40 (F := Ideal) (m ((c : Thread nD τ).loc main_arg1))) shapeCasts_S100000_S100000x1) := Stretch.s0_v12 (W0 m ρ c)
theorem w1_v28 : W1 m ρ c (Proc.devRef .tc main_v28) = (shapeCast S1600000x1 (val_main_v26 (F := Ideal) (m ((c : Thread nD τ).loc main_arg1))) shapeCasts_S1600000_S1600000x1) := Stretch.s0_v28 (W0 m ρ c)

/-! ## After the first layer's linear map -/

theorem w2_v1 : W2 m ρ c (Proc.devRef .tc main_v1) = (val_main_v1 (F := Ideal) (m ((c : Thread nD τ).loc main_arg1))) :=
  (W2_of_ne m ρ c main_v1 (by decide)).trans (w1_v1 m ρ c)
theorem w2_v3 : W2 m ρ c (Proc.devRef .tc main_v3) = (val_main_v3 (F := Ideal) (m ((c : Thread nD τ).loc main_arg1))) :=
  (W2_of_ne m ρ c main_v3 (by decide)).trans (w1_v3 m ρ c)
theorem w2_v12 : W2 m ρ c (Proc.devRef .tc main_v12) = (shapeCast S100000x1 (val_main_v40 (F := Ideal) (m ((c : Thread nD τ).loc main_arg1))) shapeCasts_S100000_S100000x1) :=
  (W2_of_ne m ρ c main_v12 (by decide)).trans (w1_v12 m ρ c)
theorem w2_v28 : W2 m ρ c (Proc.devRef .tc main_v28) = (shapeCast S1600000x1 (val_main_v26 (F := Ideal) (m ((c : Thread nD τ).loc main_arg1))) shapeCasts_S1600000_S1600000x1) :=
  (W2_of_ne m ρ c main_v28 (by decide)).trans (w1_v28 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w2_arg10 : W2 m ρ c (Proc.devRef .tc main_arg10) = (m ((c : Thread nD τ).loc main_arg10)) :=
  (W2_of_ne m ρ c main_arg10 (by decide)).trans (w1_arg10 m ρ c)
theorem w2_arg11 : W2 m ρ c (Proc.devRef .tc main_arg11) = (m ((c : Thread nD τ).loc main_arg11)) :=
  (W2_of_ne m ρ c main_arg11 (by decide)).trans (w1_arg11 m ρ c)
theorem w2_arg12 : W2 m ρ c (Proc.devRef .tc main_arg12) = (m ((c : Thread nD τ).loc main_arg12)) :=
  (W2_of_ne m ρ c main_arg12 (by decide)).trans (w1_arg12 m ρ c)
theorem w2_arg13 : W2 m ρ c (Proc.devRef .tc main_arg13) = (m ((c : Thread nD τ).loc main_arg13)) :=
  (W2_of_ne m ρ c main_arg13 (by decide)).trans (w1_arg13 m ρ c)
theorem w2_arg14 : W2 m ρ c (Proc.devRef .tc main_arg14) = (m ((c : Thread nD τ).loc main_arg14)) :=
  (W2_of_ne m ρ c main_arg14 (by decide)).trans (w1_arg14 m ρ c)
theorem w2_arg15 : W2 m ρ c (Proc.devRef .tc main_arg15) = (m ((c : Thread nD τ).loc main_arg15)) :=
  (W2_of_ne m ρ c main_arg15 (by decide)).trans (w1_arg15 m ρ c)
theorem w2_v29 : W2 m ρ c (Proc.devRef .tc main_v29) = (val_main_v11 (F := Ideal) (m ((c : Thread nD τ).loc main_arg0)) (m ((c : Thread nD τ).loc main_arg2))) := by
  refine (W2_arr m ρ c 2).trans ((Region0.final (V1 m ρ) c).trans ?_)
  rw [show V1 m ρ c main_arg0 = (m ((c : Thread nD τ).loc main_arg0)) from w1_arg0 m ρ c,
    show V1 m ρ c main_arg2 = (m ((c : Thread nD τ).loc main_arg2)) from w1_arg2 m ρ c]
  exact (Cert.ReferenceIdeal.Layers.lin1 (m ((c : Thread nD τ).loc main_arg0)) (m ((c : Thread nD τ).loc main_arg2))).symm

/-! ## After the second stretch: the first layer's aggregated messages and parameter rows -/

theorem w3_v1 : W3 m ρ c (Proc.devRef .tc main_v1) = (val_main_v1 (F := Ideal) (m ((c : Thread nD τ).loc main_arg1))) :=
  (Stretch.keep1 (W2 m ρ c) main_v1 (by decide)).trans (w2_v1 m ρ c)
theorem w3_v3 : W3 m ρ c (Proc.devRef .tc main_v3) = (val_main_v3 (F := Ideal) (m ((c : Thread nD τ).loc main_arg1))) :=
  (Stretch.keep1 (W2 m ρ c) main_v3 (by decide)).trans (w2_v3 m ρ c)
theorem w3_v12 : W3 m ρ c (Proc.devRef .tc main_v12) = (shapeCast S100000x1 (val_main_v40 (F := Ideal) (m ((c : Thread nD τ).loc main_arg1))) shapeCasts_S100000_S100000x1) :=
  (Stretch.keep1 (W2 m ρ c) main_v12 (by decide)).trans (w2_v12 m ρ c)
theorem w3_v28 : W3 m ρ c (Proc.devRef .tc main_v28) = (shapeCast S1600000x1 (val_main_v26 (F := Ideal) (m ((c : Thread nD τ).loc main_arg1))) shapeCasts_S1600000_S1600000x1) :=
  (Stretch.keep1 (W2 m ρ c) main_v28 (by decide)).trans (w2_v28 m ρ c)
theorem w3_v29 : W3 m ρ c (Proc.devRef .tc main_v29) = (val_main_v11 (F := Ideal) (m ((c : Thread nD τ).loc main_arg0)) (m ((c : Thread nD τ).loc main_arg2))) :=
  (Stretch.keep1 (W2 m ρ c) main_v29 (by decide)).trans (w2_v29 m ρ c)
theorem w3_arg4 : W3 m ρ c (Proc.devRef .tc main_arg4) = (m ((c : Thread nD τ).loc main_arg4)) :=
  (Stretch.keep1 (W2 m ρ c) main_arg4 (by decide)).trans (w2_arg4 m ρ c)
theorem w3_arg5 : W3 m ρ c (Proc.devRef .tc main_arg5) = (m ((c : Thread nD τ).loc main_arg5)) :=
  (Stretch.keep1 (W2 m ρ c) main_arg5 (by decide)).trans (w2_arg5 m ρ c)
theorem w3_arg6 : W3 m ρ c (Proc.devRef .tc main_arg6) = (m ((c : Thread nD τ).loc main_arg6)) :=
  (Stretch.keep1 (W2 m ρ c) main_arg6 (by decide)).trans (w2_arg6 m ρ c)
theorem w3_arg7 : W3 m ρ c (Proc.devRef .tc main_arg7) = (m ((c : Thread nD τ).loc main_arg7)) :=
  (Stretch.keep1 (W2 m ρ c) main_arg7 (by decide)).trans (w2_arg7 m ρ c)
theorem w3_arg8 : W3 m ρ c (Proc.devRef .tc main_arg8) = (m ((c : Thread nD τ).loc main_arg8)) :=
  (Stretch.keep1 (W2 m ρ c) main_arg8 (by decide)).trans (w2_arg8 m ρ c)
theorem w3_arg9 : W3 m ρ c (Proc.devRef .tc main_arg9) = (m ((c : Thread nD τ).loc main_arg9)) :=
  (Stretch.keep1 (W2 m ρ c) main_arg9 (by decide)).trans (w2_arg9 m ρ c)
theorem w3_arg10 : W3 m ρ c (Proc.devRef .tc main_arg10) = (m ((c : Thread nD τ).loc main_arg10)) :=
  (Stretch.keep1 (W2 m ρ c) main_arg10 (by decide)).trans (w2_arg10 m ρ c)
theorem w3_arg11 : W3 m ρ c (Proc.devRef .tc main_arg11) = (m ((c : Thread nD τ).loc main_arg11)) :=
  (Stretch.keep1 (W2 m ρ c) main_arg11 (by decide)).trans (w2_arg11 m ρ c)
theorem w3_arg12 : W3 m ρ c (Proc.devRef .tc main_arg12) = (m ((c : Thread nD τ).loc main_arg12)) :=
  (Stretch.keep1 (W2 m ρ c) main_arg12 (by decide)).trans (w2_arg12 m ρ c)
theorem w3_arg13 : W3 m ρ c (Proc.devRef .tc main_arg13) = (m ((c : Thread nD τ).loc main_arg13)) :=
  (Stretch.keep1 (W2 m ρ c) main_arg13 (by decide)).trans (w2_arg13 m ρ c)
theorem w3_arg14 : W3 m ρ c (Proc.devRef .tc main_arg14) = (m ((c : Thread nD τ).loc main_arg14)) :=
  (Stretch.keep1 (W2 m ρ c) main_arg14 (by decide)).trans (w2_arg14 m ρ c)
theorem w3_arg15 : W3 m ρ c (Proc.devRef .tc main_arg15) = (m ((c : Thread nD τ).loc main_arg15)) :=
  (Stretch.keep1 (W2 m ρ c) main_arg15 (by decide)).trans (w2_arg15 m ρ c)
theorem w3_v41 : W3 m ρ c (Proc.devRef .tc main_v41) = (val_main_v39 (F := Ideal) (m ((c : Thread nD τ).loc main_arg0)) (m ((c : Thread nD τ).loc main_arg1)) (m ((c : Thread nD τ).loc main_arg2))) :=
  Stretch.s1_v41 (W2 m ρ c) (m ((c : Thread nD τ).loc main_arg0)) (m ((c : Thread nD τ).loc main_arg1)) (m ((c : Thread nD τ).loc main_arg2)) (w2_v1 m ρ c) (w2_v3 m ρ c) (w2_v28 m ρ c) (w2_v29 m ρ c)
theorem w3_v50 : W3 m ρ c (Proc.devRef .tc main_v50) = (shapeCast S1x128 (m ((c : Thread nD τ).loc main_arg3)) shapeCasts_S128_S1x128) := (Stretch.s1_v50 (W2 m ρ c)).trans (by rw [w2_arg3 m ρ c])
theorem w3_v51 : W3 m ρ c (Proc.devRef .tc main_v51) = (shapeCast S1x128 (val_main_v62 (F := Ideal) (m ((c : Thread nD τ).loc main_arg8))) shapeCasts_S128_S1x128) := (Stretch.s1_v51 (W2 m ρ c)).trans (by rw [w2_arg8 m ρ c])
theorem w3_v52 : W3 m ρ c (Proc.devRef .tc main_v52) = (shapeCast S1x128 (val_main_v67 (F := Ideal) (m ((c : Thread nD τ).loc main_arg9))) shapeCasts_S128_S1x128) := (Stretch.s1_v52 (W2 m ρ c)).trans (by rw [w2_arg9 m ρ c])
theorem w3_v53 : W3 m ρ c (Proc.devRef .tc main_v53) = (shapeCast S1x128 (val_main_v49 (F := Ideal) (m ((c : Thread nD τ).loc main_arg10))) shapeCasts_S128_S1x128) := (Stretch.s1_v53 (W2 m ρ c)).trans (by rw [w2_arg10 m ρ c])
theorem w3_v54 : W3 m ρ c (Proc.devRef .tc main_v54) = (shapeCast S1x128 (val_main_v54 (F := Ideal) (m ((c : Thread nD τ).loc main_arg11))) shapeCasts_S128_S1x128) := (Stretch.s1_v54 (W2 m ρ c)).trans (by rw [w2_arg11 m ρ c])

/-! ## After the first layer's combine -/

theorem w4_v1 : W4 m ρ c (Proc.devRef .tc main_v1) = (val_main_v1 (F := Ideal) (m ((c : Thread nD τ).loc main_arg1))) :=
  (W4_of_ne m ρ c main_v1 (by decide)).trans (w3_v1 m ρ c)
theorem w4_v3 : W4 m ρ c (Proc.devRef .tc main_v3) = (val_main_v3 (F := Ideal) (m ((c : Thread nD τ).loc main_arg1))) :=
  (W4_of_ne m ρ c main_v3 (by decide)).trans (w3_v3 m ρ c)
theorem w4_v28 : W4 m ρ c (Proc.devRef .tc main_v28) = (shapeCast S1600000x1 (val_main_v26 (F := Ideal) (m ((c : Thread nD τ).loc main_arg1))) shapeCasts_S1600000_S1600000x1) :=
  (W4_of_ne m ρ c main_v28 (by decide)).trans (w3_v28 m ρ c)
theorem w4_arg4 : W4 m ρ c (Proc.devRef .tc main_arg4) = (m ((c : Thread nD τ).loc main_arg4)) :=
  (W4_of_ne m ρ c main_arg4 (by decide)).trans (w3_arg4 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)
theorem w4_arg11 : W4 m ρ c (Proc.devRef .tc main_arg11) = (m ((c : Thread nD τ).loc main_arg11)) :=
  (W4_of_ne m ρ c main_arg11 (by decide)).trans (w3_arg11 m ρ c)
theorem w4_arg12 : W4 m ρ c (Proc.devRef .tc main_arg12) = (m ((c : Thread nD τ).loc main_arg12)) :=
  (W4_of_ne m ρ c main_arg12 (by decide)).trans (w3_arg12 m ρ c)
theorem w4_arg13 : W4 m ρ c (Proc.devRef .tc main_arg13) = (m ((c : Thread nD τ).loc main_arg13)) :=
  (W4_of_ne m ρ c main_arg13 (by decide)).trans (w3_arg13 m ρ c)
theorem w4_arg14 : W4 m ρ c (Proc.devRef .tc main_arg14) = (m ((c : Thread nD τ).loc main_arg14)) :=
  (W4_of_ne m ρ c main_arg14 (by decide)).trans (w3_arg14 m ρ c)
theorem w4_arg15 : W4 m ρ c (Proc.devRef .tc main_arg15) = (m ((c : Thread nD τ).loc main_arg15)) :=
  (W4_of_ne m ρ c main_arg15 (by decide)).trans (w3_arg15 m ρ c)
theorem w4_v12 : W4 m ρ c (Proc.devRef .tc main_v12) = (shapeCast S100000x1 (val_main_v40 (F := Ideal) (m ((c : Thread nD τ).loc main_arg1))) shapeCasts_S100000_S100000x1) :=
  ((W4_arr m ρ c 2).trans (((dat1 (V3 m ρ) c).arrAt_in 2 rfl _).trans (A_eq1 (V3 m ρ) c 2))).trans (w3_v12 m ρ c)
theorem w4_v55 : W4 m ρ c (Proc.devRef .tc main_v55) = (val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))) := by
  refine (W4_arr m ρ c 8).trans ((Region1.final (V3 m ρ) c).trans ?_)
  rw [show V3 m ρ c main_v29 = (val_main_v11 (F := Ideal) (m ((c : Thread nD τ).loc main_arg0)) (m ((c : Thread nD τ).loc main_arg2))) from w3_v29 m ρ c,
    show V3 m ρ c main_v41 = (val_main_v39 (F := Ideal) (m ((c : Thread nD τ).loc main_arg0)) (m ((c : Thread nD τ).loc main_arg1)) (m ((c : Thread nD τ).loc main_arg2))) from w3_v41 m ρ c,
    show V3 m ρ c main_v12 = (shapeCast S100000x1 (val_main_v40 (F := Ideal) (m ((c : Thread nD τ).loc main_arg1))) shapeCasts_S100000_S100000x1) from w3_v12 m ρ c,
    show V3 m ρ c main_v50 = (shapeCast S1x128 (m ((c : Thread nD τ).loc main_arg3)) shapeCasts_S128_S1x128) from w3_v50 m ρ c,
    show V3 m ρ c main_v51 = (shapeCast S1x128 (val_main_v62 (F := Ideal) (m ((c : Thread nD τ).loc main_arg8))) shapeCasts_S128_S1x128) from w3_v51 m ρ c,
    show V3 m ρ c main_v52 = (shapeCast S1x128 (val_main_v67 (F := Ideal) (m ((c : Thread nD τ).loc main_arg9))) shapeCasts_S128_S1x128) from w3_v52 m ρ c,
    show V3 m ρ c main_v53 = (shapeCast S1x128 (val_main_v49 (F := Ideal) (m ((c : Thread nD τ).loc main_arg10))) shapeCasts_S128_S1x128) from w3_v53 m ρ c,
    show V3 m ρ c main_v54 = (shapeCast S1x128 (val_main_v54 (F := Ideal) (m ((c : Thread nD τ).loc main_arg11))) shapeCasts_S128_S1x128) from w3_v54 m ρ c]
  exact (Cert.ReferenceIdeal.Layers.layer1 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11)) shapeCasts_S100000_S100000x1 shapeCasts_S128_S1x128).symm

/-! ## After the second layer's linear map -/

theorem w5_v1 : W5 m ρ c (Proc.devRef .tc main_v1) = (val_main_v1 (F := Ideal) (m ((c : Thread nD τ).loc main_arg1))) :=
  (W5_of_ne m ρ c main_v1 (by decide)).trans (w4_v1 m ρ c)
theorem w5_v3 : W5 m ρ c (Proc.devRef .tc main_v3) = (val_main_v3 (F := Ideal) (m ((c : Thread nD τ).loc main_arg1))) :=
  (W5_of_ne m ρ c main_v3 (by decide)).trans (w4_v3 m ρ c)
theorem w5_v12 : W5 m ρ c (Proc.devRef .tc main_v12) = (shapeCast S100000x1 (val_main_v40 (F := Ideal) (m ((c : Thread nD τ).loc main_arg1))) shapeCasts_S100000_S100000x1) :=
  (W5_of_ne m ρ c main_v12 (by decide)).trans (w4_v12 m ρ c)
theorem w5_v28 : W5 m ρ c (Proc.devRef .tc main_v28) = (shapeCast S1600000x1 (val_main_v26 (F := Ideal) (m ((c : Thread nD τ).loc main_arg1))) shapeCasts_S1600000_S1600000x1) :=
  (W5_of_ne m ρ c main_v28 (by decide)).trans (w4_v28 m ρ c)
theorem w5_arg5 : W5 m ρ c (Proc.devRef .tc main_arg5) = (m ((c : Thread nD τ).loc main_arg5)) :=
  (W5_of_ne m ρ c main_arg5 (by decide)).trans (w4_arg5 m ρ c)
theorem w5_arg6 : W5 m ρ c (Proc.devRef .tc main_arg6) = (m ((c : Thread nD τ).loc main_arg6)) :=
  (W5_of_ne m ρ c main_arg6 (by decide)).trans (w4_arg6 m ρ c)
theorem w5_arg7 : W5 m ρ c (Proc.devRef .tc main_arg7) = (m ((c : Thread nD τ).loc main_arg7)) :=
  (W5_of_ne m ρ c main_arg7 (by decide)).trans (w4_arg7 m ρ c)
theorem w5_arg8 : W5 m ρ c (Proc.devRef .tc main_arg8) = (m ((c : Thread nD τ).loc main_arg8)) :=
  (W5_of_ne m ρ c main_arg8 (by decide)).trans (w4_arg8 m ρ c)
theorem w5_arg9 : W5 m ρ c (Proc.devRef .tc main_arg9) = (m ((c : Thread nD τ).loc main_arg9)) :=
  (W5_of_ne m ρ c main_arg9 (by decide)).trans (w4_arg9 m ρ c)
theorem w5_arg10 : W5 m ρ c (Proc.devRef .tc main_arg10) = (m ((c : Thread nD τ).loc main_arg10)) :=
  (W5_of_ne m ρ c main_arg10 (by decide)).trans (w4_arg10 m ρ c)
theorem w5_arg11 : W5 m ρ c (Proc.devRef .tc main_arg11) = (m ((c : Thread nD τ).loc main_arg11)) :=
  (W5_of_ne m ρ c main_arg11 (by decide)).trans (w4_arg11 m ρ c)
theorem w5_arg12 : W5 m ρ c (Proc.devRef .tc main_arg12) = (m ((c : Thread nD τ).loc main_arg12)) :=
  (W5_of_ne m ρ c main_arg12 (by decide)).trans (w4_arg12 m ρ c)
theorem w5_arg13 : W5 m ρ c (Proc.devRef .tc main_arg13) = (m ((c : Thread nD τ).loc main_arg13)) :=
  (W5_of_ne m ρ c main_arg13 (by decide)).trans (w4_arg13 m ρ c)
theorem w5_arg14 : W5 m ρ c (Proc.devRef .tc main_arg14) = (m ((c : Thread nD τ).loc main_arg14)) :=
  (W5_of_ne m ρ c main_arg14 (by decide)).trans (w4_arg14 m ρ c)
theorem w5_arg15 : W5 m ρ c (Proc.devRef .tc main_arg15) = (m ((c : Thread nD τ).loc main_arg15)) :=
  (W5_of_ne m ρ c main_arg15 (by decide)).trans (w4_arg15 m ρ c)
theorem w5_v56 : W5 m ρ c (Proc.devRef .tc main_v56) = (val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) := by
  refine (W5_arr m ρ c 2).trans ((Region2.final (V4 m ρ) c).trans ?_)
  rw [show V4 m ρ c main_v55 = (val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10)) (m ((c : Thread nD τ).loc main_arg11))) from w4_v55 m ρ c,
    show V4 m ρ c main_arg4 = (m ((c : Thread nD τ).loc main_arg4)) from w4_arg4 m ρ c]
  exact (Cert.ReferenceIdeal.Layers.lin2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))).symm

/-! ## After the third stretch: the second layer's aggregated messages and parameter rows -/

theorem w6_v1 : W6 m ρ c (Proc.devRef .tc main_v1) = (val_main_v1 (F := Ideal) (m ((c : Thread nD τ).loc main_arg1))) :=
  (Stretch.keep3 (W5 m ρ c) main_v1 (by decide)).trans (w5_v1 m ρ c)
theorem w6_v3 : W6 m ρ c (Proc.devRef .tc main_v3) = (val_main_v3 (F := Ideal) (m ((c : Thread nD τ).loc main_arg1))) :=
  (Stretch.keep3 (W5 m ρ c) main_v3 (by decide)).trans (w5_v3 m ρ c)
theorem w6_v12 : W6 m ρ c (Proc.devRef .tc main_v12) = (shapeCast S100000x1 (val_main_v40 (F := Ideal) (m ((c : Thread nD τ).loc main_arg1))) shapeCasts_S100000_S100000x1) :=
  (Stretch.keep3 (W5 m ρ c) main_v12 (by decide)).trans (w5_v12 m ρ c)
theorem w6_v28 : W6 m ρ c (Proc.devRef .tc main_v28) = (shapeCast S1600000x1 (val_main_v26 (F := Ideal) (m ((c : Thread nD τ).loc main_arg1))) shapeCasts_S1600000_S1600000x1) :=
  (Stretch.keep3 (W5 m ρ c) main_v28 (by decide)).trans (w5_v28 m ρ c)
theorem w6_v56 : W6 m ρ c (Proc.devRef .tc main_v56) = (val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) :=
  (Stretch.keep3 (W5 m ρ c) main_v56 (by decide)).trans (w5_v56 m ρ c)
theorem w6_arg6 : W6 m ρ c (Proc.devRef .tc main_arg6) = (m ((c : Thread nD τ).loc main_arg6)) :=
  (Stretch.keep3 (W5 m ρ c) main_arg6 (by decide)).trans (w5_arg6 m ρ c)
theorem w6_arg7 : W6 m ρ c (Proc.devRef .tc main_arg7) = (m ((c : Thread nD τ).loc main_arg7)) :=
  (Stretch.keep3 (W5 m ρ c) main_arg7 (by decide)).trans (w5_arg7 m ρ c)
theorem w6_arg8 : W6 m ρ c (Proc.devRef .tc main_arg8) = (m ((c : Thread nD τ).loc main_arg8)) :=
  (Stretch.keep3 (W5 m ρ c) main_arg8 (by decide)).trans (w5_arg8 m ρ c)
theorem w6_arg9 : W6 m ρ c (Proc.devRef .tc main_arg9) = (m ((c : Thread nD τ).loc main_arg9)) :=
  (Stretch.keep3 (W5 m ρ c) main_arg9 (by decide)).trans (w5_arg9 m ρ c)
theorem w6_arg10 : W6 m ρ c (Proc.devRef .tc main_arg10) = (m ((c : Thread nD τ).loc main_arg10)) :=
  (Stretch.keep3 (W5 m ρ c) main_arg10 (by decide)).trans (w5_arg10 m ρ c)
theorem w6_arg11 : W6 m ρ c (Proc.devRef .tc main_arg11) = (m ((c : Thread nD τ).loc main_arg11)) :=
  (Stretch.keep3 (W5 m ρ c) main_arg11 (by decide)).trans (w5_arg11 m ρ c)
theorem w6_arg12 : W6 m ρ c (Proc.devRef .tc main_arg12) = (m ((c : Thread nD τ).loc main_arg12)) :=
  (Stretch.keep3 (W5 m ρ c) main_arg12 (by decide)).trans (w5_arg12 m ρ c)
theorem w6_arg13 : W6 m ρ c (Proc.devRef .tc main_arg13) = (m ((c : Thread nD τ).loc main_arg13)) :=
  (Stretch.keep3 (W5 m ρ c) main_arg13 (by decide)).trans (w5_arg13 m ρ c)
theorem w6_arg14 : W6 m ρ c (Proc.devRef .tc main_arg14) = (m ((c : Thread nD τ).loc main_arg14)) :=
  (Stretch.keep3 (W5 m ρ c) main_arg14 (by decide)).trans (w5_arg14 m ρ c)
theorem w6_arg15 : W6 m ρ c (Proc.devRef .tc main_arg15) = (m ((c : Thread nD τ).loc main_arg15)) :=
  (Stretch.keep3 (W5 m ρ c) main_arg15 (by decide)).trans (w5_arg15 m ρ c)
theorem w6_v68 : W6 m ρ c (Proc.devRef .tc main_v68) = (val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) :=
  Stretch.s3_v68 (W5 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11)) (w5_v1 m ρ c) (w5_v3 m ρ c) (w5_v28 m ρ c) (w5_v56 m ρ c)
theorem w6_v77 : W6 m ρ c (Proc.devRef .tc main_v77) = (shapeCast S1x128 (m ((c : Thread nD τ).loc main_arg5)) shapeCasts_S128_S1x128) := (Stretch.s3_v77 (W5 m ρ c)).trans (by rw [w5_arg5 m ρ c])
theorem w6_v78 : W6 m ρ c (Proc.devRef .tc main_v78) = (shapeCast S1x128 (val_main_v123 (F := Ideal) (m ((c : Thread nD τ).loc main_arg8))) shapeCasts_S128_S1x128) := (Stretch.s3_v78 (W5 m ρ c)).trans (by rw [w5_arg8 m ρ c])
theorem w6_v79 : W6 m ρ c (Proc.devRef .tc main_v79) = (shapeCast S1x128 (val_main_v128 (F := Ideal) (m ((c : Thread nD τ).loc main_arg9))) shapeCasts_S128_S1x128) := (Stretch.s3_v79 (W5 m ρ c)).trans (by rw [w5_arg9 m ρ c])
theorem w6_v80 : W6 m ρ c (Proc.devRef .tc main_v80) = (shapeCast S1x128 (val_main_v110 (F := Ideal) (m ((c : Thread nD τ).loc main_arg10))) shapeCasts_S128_S1x128) := (Stretch.s3_v80 (W5 m ρ c)).trans (by rw [w5_arg10 m ρ c])
theorem w6_v81 : W6 m ρ c (Proc.devRef .tc main_v81) = (shapeCast S1x128 (val_main_v115 (F := Ideal) (m ((c : Thread nD τ).loc main_arg11))) shapeCasts_S128_S1x128) := (Stretch.s3_v81 (W5 m ρ c)).trans (by rw [w5_arg11 m ρ c])

/-! ## After the second layer's combine -/

theorem w7_v1 : W7 m ρ c (Proc.devRef .tc main_v1) = (val_main_v1 (F := Ideal) (m ((c : Thread nD τ).loc main_arg1))) :=
  (W7_of_ne m ρ c main_v1 (by decide)).trans (w6_v1 m ρ c)
theorem w7_v3 : W7 m ρ c (Proc.devRef .tc main_v3) = (val_main_v3 (F := Ideal) (m ((c : Thread nD τ).loc main_arg1))) :=
  (W7_of_ne m ρ c main_v3 (by decide)).trans (w6_v3 m ρ c)
theorem w7_v28 : W7 m ρ c (Proc.devRef .tc main_v28) = (shapeCast S1600000x1 (val_main_v26 (F := Ideal) (m ((c : Thread nD τ).loc main_arg1))) shapeCasts_S1600000_S1600000x1) :=
  (W7_of_ne m ρ c main_v28 (by decide)).trans (w6_v28 m ρ c)
theorem w7_arg6 : W7 m ρ c (Proc.devRef .tc main_arg6) = (m ((c : Thread nD τ).loc main_arg6)) :=
  (W7_of_ne m ρ c main_arg6 (by decide)).trans (w6_arg6 m ρ c)
theorem w7_arg7 : W7 m ρ c (Proc.devRef .tc main_arg7) = (m ((c : Thread nD τ).loc main_arg7)) :=
  (W7_of_ne m ρ c main_arg7 (by decide)).trans (w6_arg7 m ρ c)
theorem w7_arg8 : W7 m ρ c (Proc.devRef .tc main_arg8) = (m ((c : Thread nD τ).loc main_arg8)) :=
  (W7_of_ne m ρ c main_arg8 (by decide)).trans (w6_arg8 m ρ c)
theorem w7_arg9 : W7 m ρ c (Proc.devRef .tc main_arg9) = (m ((c : Thread nD τ).loc main_arg9)) :=
  (W7_of_ne m ρ c main_arg9 (by decide)).trans (w6_arg9 m ρ c)
theorem w7_arg10 : W7 m ρ c (Proc.devRef .tc main_arg10) = (m ((c : Thread nD τ).loc main_arg10)) :=
  (W7_of_ne m ρ c main_arg10 (by decide)).trans (w6_arg10 m ρ c)
theorem w7_arg11 : W7 m ρ c (Proc.devRef .tc main_arg11) = (m ((c : Thread nD τ).loc main_arg11)) :=
  (W7_of_ne m ρ c main_arg11 (by decide)).trans (w6_arg11 m ρ c)
theorem w7_arg12 : W7 m ρ c (Proc.devRef .tc main_arg12) = (m ((c : Thread nD τ).loc main_arg12)) :=
  (W7_of_ne m ρ c main_arg12 (by decide)).trans (w6_arg12 m ρ c)
theorem w7_arg13 : W7 m ρ c (Proc.devRef .tc main_arg13) = (m ((c : Thread nD τ).loc main_arg13)) :=
  (W7_of_ne m ρ c main_arg13 (by decide)).trans (w6_arg13 m ρ c)
theorem w7_arg14 : W7 m ρ c (Proc.devRef .tc main_arg14) = (m ((c : Thread nD τ).loc main_arg14)) :=
  (W7_of_ne m ρ c main_arg14 (by decide)).trans (w6_arg14 m ρ c)
theorem w7_arg15 : W7 m ρ c (Proc.devRef .tc main_arg15) = (m ((c : Thread nD τ).loc main_arg15)) :=
  (W7_of_ne m ρ c main_arg15 (by decide)).trans (w6_arg15 m ρ c)
theorem w7_v12 : W7 m ρ c (Proc.devRef .tc main_v12) = (shapeCast S100000x1 (val_main_v40 (F := Ideal) (m ((c : Thread nD τ).loc main_arg1))) shapeCasts_S100000_S100000x1) :=
  ((W7_arr m ρ c 2).trans (((dat3 (V6 m ρ) c).arrAt_in 2 rfl _).trans (A_eq3 (V6 m ρ) c 2))).trans (w6_v12 m ρ c)
theorem w7_v82 : W7 m ρ c (Proc.devRef .tc main_v82) = (val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) := by
  refine (W7_arr m ρ c 8).trans ((Region3.final (V6 m ρ) c).trans ?_)
  rw [show V6 m ρ c main_v56 = (val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) from w6_v56 m ρ c,
    show V6 m ρ c main_v68 = (val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg10)) (m ((c : Thread nD τ).loc main_arg11))) from w6_v68 m ρ c,
    show V6 m ρ c main_v12 = (shapeCast S100000x1 (val_main_v40 (F := Ideal) (m ((c : Thread nD τ).loc main_arg1))) shapeCasts_S100000_S100000x1) from w6_v12 m ρ c,
    show V6 m ρ c main_v77 = (shapeCast S1x128 (m ((c : Thread nD τ).loc main_arg5)) shapeCasts_S128_S1x128) from w6_v77 m ρ c,
    show V6 m ρ c main_v78 = (shapeCast S1x128 (val_main_v123 (F := Ideal) (m ((c : Thread nD τ).loc main_arg8))) shapeCasts_S128_S1x128) from w6_v78 m ρ c,
    show V6 m ρ c main_v79 = (shapeCast S1x128 (val_main_v128 (F := Ideal) (m ((c : Thread nD τ).loc main_arg9))) shapeCasts_S128_S1x128) from w6_v79 m ρ c,
    show V6 m ρ c main_v80 = (shapeCast S1x128 (val_main_v110 (F := Ideal) (m ((c : Thread nD τ).loc main_arg10))) shapeCasts_S128_S1x128) from w6_v80 m ρ c,
    show V6 m ρ c main_v81 = (shapeCast S1x128 (val_main_v115 (F := Ideal) (m ((c : Thread nD τ).loc main_arg11))) shapeCasts_S128_S1x128) from w6_v81 m ρ c]
  exact (Cert.ReferenceIdeal.Layers.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) shapeCasts_S100000_S100000x1 shapeCasts_S128_S1x128).symm

/-! ## After the third layer's linear map -/

theorem w8_v1 : W8 m ρ c (Proc.devRef .tc main_v1) = (val_main_v1 (F := Ideal) (m ((c : Thread nD τ).loc main_arg1))) :=
  (W8_of_ne m ρ c main_v1 (by decide)).trans (w7_v1 m ρ c)
theorem w8_v3 : W8 m ρ c (Proc.devRef .tc main_v3) = (val_main_v3 (F := Ideal) (m ((c : Thread nD τ).loc main_arg1))) :=
  (W8_of_ne m ρ c main_v3 (by decide)).trans (w7_v3 m ρ c)
theorem w8_v12 : W8 m ρ c (Proc.devRef .tc main_v12) = (shapeCast S100000x1 (val_main_v40 (F := Ideal) (m ((c : Thread nD τ).loc main_arg1))) shapeCasts_S100000_S100000x1) :=
  (W8_of_ne m ρ c main_v12 (by decide)).trans (w7_v12 m ρ c)
theorem w8_v28 : W8 m ρ c (Proc.devRef .tc main_v28) = (shapeCast S1600000x1 (val_main_v26 (F := Ideal) (m ((c : Thread nD τ).loc main_arg1))) shapeCasts_S1600000_S1600000x1) :=
  (W8_of_ne m ρ c main_v28 (by decide)).trans (w7_v28 m ρ c)
theorem w8_arg7 : W8 m ρ c (Proc.devRef .tc main_arg7) = (m ((c : Thread nD τ).loc main_arg7)) :=
  (W8_of_ne m ρ c main_arg7 (by decide)).trans (w7_arg7 m ρ c)
theorem w8_arg8 : W8 m ρ c (Proc.devRef .tc main_arg8) = (m ((c : Thread nD τ).loc main_arg8)) :=
  (W8_of_ne m ρ c main_arg8 (by decide)).trans (w7_arg8 m ρ c)
theorem w8_arg9 : W8 m ρ c (Proc.devRef .tc main_arg9) = (m ((c : Thread nD τ).loc main_arg9)) :=
  (W8_of_ne m ρ c main_arg9 (by decide)).trans (w7_arg9 m ρ c)
theorem w8_arg10 : W8 m ρ c (Proc.devRef .tc main_arg10) = (m ((c : Thread nD τ).loc main_arg10)) :=
  (W8_of_ne m ρ c main_arg10 (by decide)).trans (w7_arg10 m ρ c)
theorem w8_arg11 : W8 m ρ c (Proc.devRef .tc main_arg11) = (m ((c : Thread nD τ).loc main_arg11)) :=
  (W8_of_ne m ρ c main_arg11 (by decide)).trans (w7_arg11 m ρ c)
theorem w8_arg12 : W8 m ρ c (Proc.devRef .tc main_arg12) = (m ((c : Thread nD τ).loc main_arg12)) :=
  (W8_of_ne m ρ c main_arg12 (by decide)).trans (w7_arg12 m ρ c)
theorem w8_arg13 : W8 m ρ c (Proc.devRef .tc main_arg13) = (m ((c : Thread nD τ).loc main_arg13)) :=
  (W8_of_ne m ρ c main_arg13 (by decide)).trans (w7_arg13 m ρ c)
theorem w8_arg14 : W8 m ρ c (Proc.devRef .tc main_arg14) = (m ((c : Thread nD τ).loc main_arg14)) :=
  (W8_of_ne m ρ c main_arg14 (by decide)).trans (w7_arg14 m ρ c)
theorem w8_arg15 : W8 m ρ c (Proc.devRef .tc main_arg15) = (m ((c : Thread nD τ).loc main_arg15)) :=
  (W8_of_ne m ρ c main_arg15 (by decide)).trans (w7_arg15 m ρ c)
theorem w8_v83 : W8 m ρ c (Proc.devRef .tc main_v83) = (val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))) := by
  refine (W8_arr m ρ c 2).trans ((Region4.final (V7 m ρ) c).trans ?_)
  rw [show V7 m ρ c main_v82 = (val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) from w7_v82 m ρ c,
    show V7 m ρ c main_arg6 = (m ((c : Thread nD τ).loc main_arg6)) from w7_arg6 m ρ c]
  exact (Cert.ReferenceIdeal.Layers.lin3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))).symm

/-! ## After the fourth stretch: the third layer's aggregated messages and parameter rows -/

theorem w9_v12 : W9 m ρ c (Proc.devRef .tc main_v12) = (shapeCast S100000x1 (val_main_v40 (F := Ideal) (m ((c : Thread nD τ).loc main_arg1))) shapeCasts_S100000_S100000x1) :=
  (Stretch.keep5 (W8 m ρ c) main_v12 (by decide)).trans (w8_v12 m ρ c)
theorem w9_v83 : W9 m ρ c (Proc.devRef .tc main_v83) = (val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))) :=
  (Stretch.keep5 (W8 m ρ c) main_v83 (by decide)).trans (w8_v83 m ρ c)
theorem w9_arg12 : W9 m ρ c (Proc.devRef .tc main_arg12) = (m ((c : Thread nD τ).loc main_arg12)) :=
  (Stretch.keep5 (W8 m ρ c) main_arg12 (by decide)).trans (w8_arg12 m ρ c)
theorem w9_arg13 : W9 m ρ c (Proc.devRef .tc main_arg13) = (m ((c : Thread nD τ).loc main_arg13)) :=
  (Stretch.keep5 (W8 m ρ c) main_arg13 (by decide)).trans (w8_arg13 m ρ c)
theorem w9_arg14 : W9 m ρ c (Proc.devRef .tc main_arg14) = (m ((c : Thread nD τ).loc main_arg14)) :=
  (Stretch.keep5 (W8 m ρ c) main_arg14 (by decide)).trans (w8_arg14 m ρ c)
theorem w9_arg15 : W9 m ρ c (Proc.devRef .tc main_arg15) = (m ((c : Thread nD τ).loc main_arg15)) :=
  (Stretch.keep5 (W8 m ρ c) main_arg15 (by decide)).trans (w8_arg15 m ρ c)
theorem w9_v95 : W9 m ρ c (Proc.devRef .tc main_v95) = (val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))) :=
  Stretch.s5_v95 (W8 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (w8_v1 m ρ c) (w8_v3 m ρ c) (w8_v28 m ρ c) (w8_v83 m ρ c)
theorem w9_v104 : W9 m ρ c (Proc.devRef .tc main_v104) = (shapeCast S1x128 (m ((c : Thread nD τ).loc main_arg7)) shapeCasts_S128_S1x128) := (Stretch.s5_v104 (W8 m ρ c)).trans (by rw [w8_arg7 m ρ c])
theorem w9_v105 : W9 m ρ c (Proc.devRef .tc main_v105) = (shapeCast S1x128 (val_main_v184 (F := Ideal) (m ((c : Thread nD τ).loc main_arg8))) shapeCasts_S128_S1x128) := (Stretch.s5_v105 (W8 m ρ c)).trans (by rw [w8_arg8 m ρ c])
theorem w9_v106 : W9 m ρ c (Proc.devRef .tc main_v106) = (shapeCast S1x128 (val_main_v189 (F := Ideal) (m ((c : Thread nD τ).loc main_arg9))) shapeCasts_S128_S1x128) := (Stretch.s5_v106 (W8 m ρ c)).trans (by rw [w8_arg9 m ρ c])
theorem w9_v107 : W9 m ρ c (Proc.devRef .tc main_v107) = (shapeCast S1x128 (val_main_v171 (F := Ideal) (m ((c : Thread nD τ).loc main_arg10))) shapeCasts_S128_S1x128) := (Stretch.s5_v107 (W8 m ρ c)).trans (by rw [w8_arg10 m ρ c])
theorem w9_v108 : W9 m ρ c (Proc.devRef .tc main_v108) = (shapeCast S1x128 (val_main_v176 (F := Ideal) (m ((c : Thread nD τ).loc main_arg11))) shapeCasts_S128_S1x128) := (Stretch.s5_v108 (W8 m ρ c)).trans (by rw [w8_arg11 m ρ c])

/-! ## After the third layer's combine -/

theorem w10_arg12 : W10 m ρ c (Proc.devRef .tc main_arg12) = (m ((c : Thread nD τ).loc main_arg12)) :=
  (W10_of_ne m ρ c main_arg12 (by decide)).trans (w9_arg12 m ρ c)
theorem w10_arg13 : W10 m ρ c (Proc.devRef .tc main_arg13) = (m ((c : Thread nD τ).loc main_arg13)) :=
  (W10_of_ne m ρ c main_arg13 (by decide)).trans (w9_arg13 m ρ c)
theorem w10_arg14 : W10 m ρ c (Proc.devRef .tc main_arg14) = (m ((c : Thread nD τ).loc main_arg14)) :=
  (W10_of_ne m ρ c main_arg14 (by decide)).trans (w9_arg14 m ρ c)
theorem w10_arg15 : W10 m ρ c (Proc.devRef .tc main_arg15) = (m ((c : Thread nD τ).loc main_arg15)) :=
  (W10_of_ne m ρ c main_arg15 (by decide)).trans (w9_arg15 m ρ c)
theorem w10_v109 : W10 m ρ c (Proc.devRef .tc main_v109) = (val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W10_arr m ρ c 8).trans ((Region5.final (V9 m ρ) c).trans ?_)
  rw [show V9 m ρ c main_v83 = (val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))) from w9_v83 m ρ c,
    show V9 m ρ c main_v95 = (val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))) from w9_v95 m ρ c,
    show V9 m ρ c main_v12 = (shapeCast S100000x1 (val_main_v40 (F := Ideal) (m ((c : Thread nD τ).loc main_arg1))) shapeCasts_S100000_S100000x1) from w9_v12 m ρ c,
    show V9 m ρ c main_v104 = (shapeCast S1x128 (m ((c : Thread nD τ).loc main_arg7)) shapeCasts_S128_S1x128) from w9_v104 m ρ c,
    show V9 m ρ c main_v105 = (shapeCast S1x128 (val_main_v184 (F := Ideal) (m ((c : Thread nD τ).loc main_arg8))) shapeCasts_S128_S1x128) from w9_v105 m ρ c,
    show V9 m ρ c main_v106 = (shapeCast S1x128 (val_main_v189 (F := Ideal) (m ((c : Thread nD τ).loc main_arg9))) shapeCasts_S128_S1x128) from w9_v106 m ρ c,
    show V9 m ρ c main_v107 = (shapeCast S1x128 (val_main_v171 (F := Ideal) (m ((c : Thread nD τ).loc main_arg10))) shapeCasts_S128_S1x128) from w9_v107 m ρ c,
    show V9 m ρ c main_v108 = (shapeCast S1x128 (val_main_v176 (F := Ideal) (m ((c : Thread nD τ).loc main_arg11))) shapeCasts_S128_S1x128) from w9_v108 m ρ c]
  exact (Cert.ReferenceIdeal.Layers.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) shapeCasts_S100000_S100000x1 shapeCasts_S128_S1x128).symm

/-! ## After the last stretch: the head's bias rows -/

theorem w11_v109 : W11 m ρ c (Proc.devRef .tc main_v109) = (val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (Stretch.keep6 (W10 m ρ c) main_v109 (by decide)).trans (w10_v109 m ρ c)
theorem w11_arg12 : W11 m ρ c (Proc.devRef .tc main_arg12) = (m ((c : Thread nD τ).loc main_arg12)) :=
  (Stretch.keep6 (W10 m ρ c) main_arg12 (by decide)).trans (w10_arg12 m ρ c)
theorem w11_arg14 : W11 m ρ c (Proc.devRef .tc main_arg14) = (m ((c : Thread nD τ).loc main_arg14)) :=
  (Stretch.keep6 (W10 m ρ c) main_arg14 (by decide)).trans (w10_arg14 m ρ c)
theorem w11_v110 : W11 m ρ c (Proc.devRef .tc main_v110) = (shapeCast S1x64 (m ((c : Thread nD τ).loc main_arg13)) shapeCasts_S64_S1x64) := (Stretch.s6_v110 (W10 m ρ c)).trans (by rw [w10_arg13 m ρ c])
theorem w11_v111 : W11 m ρ c (Proc.devRef .tc main_v111) = (shapeCast S1x1 (m ((c : Thread nD τ).loc main_arg15)) shapeCasts_S1_S1x1) := (Stretch.s6_v111 (W10 m ρ c)).trans (by rw [w10_arg15 m ρ c])

/-! ## After the head -/

/-- After the last region the result buffer holds the reference's last stage of the launch contents of the arguments. -/
theorem kernel_value (m : (ℓ : Loc nD τ sig) → Buf (Elt Ideal) ℓ) (ρ : Dev nD → PrngReg) (c : Dev nD) :
    W12 m ρ c (Proc.devRef .tc main_v112)
      = Cert.ReferenceIdeal.Read.val_main_v202 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W12_arr m ρ c 5).trans ((Region6.final (V11 m ρ) c).trans ?_)
  rw [show V11 m ρ c main_v109 = (val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) from w11_v109 m ρ c,
    show V11 m ρ c main_arg12 = (m ((c : Thread nD τ).loc main_arg12)) from w11_arg12 m ρ c,
    show V11 m ρ c main_v110 = (shapeCast S1x64 (m ((c : Thread nD τ).loc main_arg13)) shapeCasts_S64_S1x64) from w11_v110 m ρ c,
    show V11 m ρ c main_arg14 = (m ((c : Thread nD τ).loc main_arg14)) from w11_arg14 m ρ c,
    show V11 m ρ c main_v111 = (shapeCast S1x1 (m ((c : Thread nD τ).loc main_arg15)) shapeCasts_S1_S1x1) from w11_v111 m ρ c]
  exact (Cert.ReferenceIdeal.Layers.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) shapeCasts_S64_S1x64 shapeCasts_S1_S1x1).symm

end Cert.KernelIdeal.Chain

end
-- ==== Proof.Assembly.lean ====
/-
  The five claims of the certificate. Each program's frame is its generated run. At the extended reals the kernel's
  result array ends at the reference program's last stage of the launch contents of the kernel's arguments, and the
  reference's own run ends at that stage of its arguments; from memories that agree on the arguments the two results
  are one column.
-/
import proofs.«132452_j56418690400931_1_alg».proof.Defs
import proofs.«132452_j56418690400931_1_alg».proof.Proof.Gen.Kernel.Frame
import proofs.«132452_j56418690400931_1_alg».proof.Proof.Gen.KernelIdeal.Frame
import proofs.«132452_j56418690400931_1_alg».proof.Proof.Gen.ReferenceIdeal.Run
import proofs.«132452_j56418690400931_1_alg».proof.Proof.Gen.ReferenceIdeal.Read
import proofs.«132452_j56418690400931_1_alg».proof.Proof.Gen.Pre_finite_inputs
import proofs.«132452_j56418690400931_1_alg».proof.Proof.FrameVal
import proofs.«132452_j56418690400931_1_alg».proof.Proof.KernelValue

noncomputable section

open Idealize.ShloMosaic Idealize.ShloMosaic.TcCoe Idealize.SL.Sem

namespace Cert.Proof.Claims

/-- The kernel as printed runs and keeps its arguments. -/
theorem frame_p : Cert.frame_Kernel := fun m ρ _ => Cert.Kernel.Gen.frame m ρ

/-- The kernel at the extended reals runs and keeps its arguments. -/
theorem frame_pi : Cert.frame_KernelIdeal := fun m ρ _ => Cert.KernelIdeal.Gen.frame m ρ

/-- The reference at the extended reals runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals both programs end with the reference's last stage of the kernel's arguments: the kernel's
    result array by its run read region by region, the reference's by its own run at arguments that agree. -/
theorem algebraic : Cert.algebraic_KernelIdeal_ReferenceIdeal := by
  intro m ρ m' ρ' _ hagree
  refine ⟨fun c => Cert.ReferenceIdeal.Read.val_main_v202 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.kernel_value m ρ c), (h c).2⟩)
      (Cert.KernelIdeal.GenP.frame_val m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    refine (Cert.ReferenceIdeal.Read.val_main_v202_eq (F := Ideal) m' c).trans ?_
    rw [h0, h1, h2, h3, h4, h5, h6, h7, h8, h9, h10, h11, h12, h13, h14, h15]

end Cert.Proof.Claims

end
-- ==== Proof.lean ====
/-
  A three-layer graph-convolution network. Its linear maps, its per-layer combine (aggregate plus self-loop term plus
  bias, normalisation by running statistics, positive part) and its two-layer head run as seven tiled regions between
  the same gathers and scatter-adds the reference uses. At the extended reals each region's blocks tile its result
  with the reference's stage, so the two programs end with the same column.
-/
import proofs.«132452_j56418690400931_1_alg».proof.Defs
import proofs.«132452_j56418690400931_1_alg».proof.Proof.Gen.Kernel
import proofs.«132452_j56418690400931_1_alg».proof.Proof.Gen.Kernel.Skeleton
import proofs.«132452_j56418690400931_1_alg».proof.Proof.Gen.Kernel.Launch
import proofs.«132452_j56418690400931_1_alg».proof.Proof.Gen.Kernel.Points
import proofs.«132452_j56418690400931_1_alg».proof.Proof.Gen.Kernel.Frame
import proofs.«132452_j56418690400931_1_alg».proof.Proof.Gen.KernelIdeal
import proofs.«132452_j56418690400931_1_alg».proof.Proof.Gen.KernelIdeal.Skeleton
import proofs.«132452_j56418690400931_1_alg».proof.Proof.Gen.KernelIdeal.Launch
import proofs.«132452_j56418690400931_1_alg».proof.Proof.Gen.KernelIdeal.Points
import proofs.«132452_j56418690400931_1_alg».proof.Proof.Gen.KernelIdeal.Frame
import proofs.«132452_j56418690400931_1_alg».proof.Proof.Gen.ReferenceIdeal
import proofs.«132452_j56418690400931_1_alg».proof.Proof.Gen.Pre_finite_inputs
import proofs.«132452_j56418690400931_1_alg».proof.Proof.Assembly
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
